-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8192x64 : Shape := ⟨2, ![8192, 64]⟩
abbrev S64x125 : Shape := ⟨2, ![64, 125]⟩
abbrev S125 : Shape := ⟨1, ![125]⟩
abbrev S125x96 : Shape := ⟨2, ![125, 96]⟩
abbrev S96 : Shape := ⟨1, ![96]⟩
abbrev S96x64 : Shape := ⟨2, ![96, 64]⟩
abbrev S64 : Shape := ⟨1, ![64]⟩
abbrev S262144 : Shape := ⟨1, ![262144]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x125 : S_.BroadcastsInDim S64x125 (![] : Fin 0 → Fin S64x125.rank)
  reducesTo_S64x125_S_d0_1 : S64x125.ReducesTo [0, 1] S_
  bcast_S_S125 : S_.BroadcastsInDim S125 (![] : Fin 0 → Fin S125.rank)
  reducesTo_S125_S_d0 : S125.ReducesTo [0] S_
  bcast_S_S125x96 : S_.BroadcastsInDim S125x96 (![] : Fin 0 → Fin S125x96.rank)
  reducesTo_S125x96_S_d0_1 : S125x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S64 .f32) (main_v98 : IVec S_ 1) (main_v101 : IVec S96x64 1) (main_c_39 : IVec S_ 1) : IVec S_ 1 :=
  let main_v102 : IVec S_ 1 := (fun x v => Host.reduce IntOp.andi x v reducesTo_S96x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg18 : FVec F S96x64 .f32) (main_arg19 : FVec F S64 .f32) (main_arg20 : FVec F S96x64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S96x64 .f32 := Host.absf main_arg18
  let main_cst_34 : FVec F S_ .f32 := constant S_ .f32 0x7F800000#32
  let main_v90 : FVec F S96x64 .f32 := broadcastInDim S96x64 ![] bcast_S_S96x64 main_cst_34
  let main_v91 : IVec S96x64 1 := cmpf .olt main_v89 main_v90
  let main_c_35 : IVec S_ 1 := constantI S_ 1 1#1
  let main_v92 : IVec S_ 1 := (fun x v => Host.reduce IntOp.andi x v reducesTo_S96x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S96x64 .f32 := Host.absf main_arg20
  let main_cst_38 : FVec F S_ .f32 := constant S_ .f32 0x7F800000#32
  let main_v100 : FVec F S96x64 .f32 := broadcastInDim S96x64 ![] bcast_S_S96x64 main_cst_38
  let main_v101 : IVec S96x64 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S96x64 .f32) (main_arg15 : FVec F S64 .f32) (main_arg16 : FVec F S96x64 .f32) (main_arg17 : FVec F S64 .f32) (main_arg18 : FVec F S96x64 .f32) (main_arg19 : FVec F S64 .f32) (main_arg20 : FVec F S96x64 .f32) (main_arg21 : FVec F S64 .f32) (main_v63 : IVec S_ 1) (main_v67 : IVec S_ 1) : IVec S_ 1 :=
  let main_v68 : IVec S_ 1 := andi main_v63 main_v67
  let main_v69 : FVec F S96x64 .f32 := Host.absf main_arg14
  let main_cst_26 : FVec F S_ .f32 := constant S_ .f32 0x7F800000#32
  let main_v70 : FVec F S96x64 .f32 := broadcastInDim S96x64 ![] bcast_S_S96x64 main_cst_26
  let main_v71 : IVec S96x64 1 := cmpf .olt main_v69 main_v70
  let main_c_27 : IVec S_ 1 := constantI S_ 1 1#1
  let main_v72 : IVec S_ 1 := (fun x v => Host.reduce IntOp.andi x v reducesTo_S96x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S96x64 .f32 := Host.absf main_arg16
  let main_cst_30 : FVec F S_ .f32 := constant S_ .f32 0x7F800000#32
  let main_v80 : FVec F S96x64 .f32 := broadcastInDim S96x64 ![] bcast_S_S96x64 main_cst_30
  let main_v81 : IVec S96x64 1 := cmpf .olt main_v79 main_v80
  let main_c_31 : IVec S_ 1 := constantI S_ 1 1#1
  let main_v82 : IVec S_ 1 := (fun x v => Host.reduce IntOp.andi x v reducesTo_S96x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S96 .f32) (main_arg12 : FVec F S125x96 .f32) (main_arg13 : FVec F S96 .f32) (main_arg14 : FVec F S96x64 .f32) (main_arg15 : FVec F S64 .f32) (main_arg16 : FVec F S96x64 .f32) (main_arg17 : FVec F S64 .f32) (main_arg18 : FVec F S96x64 .f32) (main_arg19 : FVec F S64 .f32) (main_arg20 : FVec F S96x64 .f32) (main_arg21 : FVec F S64 .f32) (main_v48 : IVec S_ 1) (main_v49 : FVec F S125x96 .f32) (main_v50 : FVec F S125x96 .f32) : IVec S_ 1 :=
  let main_v51 : IVec S125x96 1 := cmpf .olt main_v49 main_v50
  let main_c_19 : IVec S_ 1 := constantI S_ 1 1#1
  let main_v52 : IVec S_ 1 := (fun x v => Host.reduce IntOp.andi x v reducesTo_S125x96_S_d0_1 h_S_) main_v51 main_c_19
  let main_v53 : IVec S_ 1 := andi main_v48 main_v52
  let main_v54 : FVec F S96 .f32 := Host.absf main_arg11
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S125x96 .f32 := Host.absf main_arg12
  let main_cst_22 : FVec F S_ .f32 := constant S_ .f32 0x7F800000#32
  let main_v60 : FVec F S125x96 .f32 := broadcastInDim S125x96 ![] bcast_S_S125x96 main_cst_22
  let main_v61 : IVec S125x96 1 := cmpf .olt main_v59 main_v60
  let main_c_23 : IVec S_ 1 := constantI S_ 1 1#1
  let main_v62 : IVec S_ 1 := (fun x v => Host.reduce IntOp.andi x v reducesTo_S125x96_S_d0_1 h_S_) main_v61 main_c_23
  let main_v63 : IVec S_ 1 := andi main_v58 main_v62
  let main_v64 : FVec F S96 .f32 := Host.absf main_arg13
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S96 .f32) (main_arg8 : FVec F S125x96 .f32) (main_arg9 : FVec F S96 .f32) (main_arg10 : FVec F S125x96 .f32) (main_arg11 : FVec F S96 .f32) (main_arg12 : FVec F S125x96 .f32) (main_arg13 : FVec F S96 .f32) (main_arg14 : FVec F S96x64 .f32) (main_arg15 : FVec F S64 .f32) (main_arg16 : FVec F S96x64 .f32) (main_arg17 : FVec F S64 .f32) (main_arg18 : FVec F S96x64 .f32) (main_arg19 : FVec F S64 .f32) (main_arg20 : FVec F S96x64 .f32) (main_arg21 : FVec F S64 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S125x96 .f32 := Host.absf main_arg8
  let main_cst_14 : FVec F S_ .f32 := constant S_ .f32 0x7F800000#32
  let main_v40 : FVec F S125x96 .f32 := broadcastInDim S125x96 ![] bcast_S_S125x96 main_cst_14
  let main_v41 : IVec S125x96 1 := cmpf .olt main_v39 main_v40
  let main_c_15 : IVec S_ 1 := constantI S_ 1 1#1
  let main_v42 : IVec S_ 1 := (fun x v => Host.reduce IntOp.andi x v reducesTo_S125x96_S_d0_1 h_S_) main_v41 main_c_15
  let main_v43 : IVec S_ 1 := andi main_v38 main_v42
  let main_v44 : FVec F S96 .f32 := Host.absf main_arg9
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S125x96 .f32 := Host.absf main_arg10
  let main_cst_18 : FVec F S_ .f32 := constant S_ .f32 0x7F800000#32
  let main_v50 : FVec F S125x96 .f32 := broadcastInDim S125x96 ![] bcast_S_S125x96 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64x125 .f32) (main_arg5 : FVec F S125 .f32) (main_arg6 : FVec F S125x96 .f32) (main_arg7 : FVec F S96 .f32) (main_arg8 : FVec F S125x96 .f32) (main_arg9 : FVec F S96 .f32) (main_arg10 : FVec F S125x96 .f32) (main_arg11 : FVec F S96 .f32) (main_arg12 : FVec F S125x96 .f32) (main_arg13 : FVec F S96 .f32) (main_arg14 : FVec F S96x64 .f32) (main_arg15 : FVec F S64 .f32) (main_arg16 : FVec F S96x64 .f32) (main_arg17 : FVec F S64 .f32) (main_arg18 : FVec F S96x64 .f32) (main_arg19 : FVec F S64 .f32) (main_arg20 : FVec F S96x64 .f32) (main_arg21 : FVec F S64 .f32) (main_v13 : IVec S_ 1) (main_v16 : IVec S125 1) : IVec S_ 1 :=
  let main_c_5 : IVec S_ 1 := constantI S_ 1 1#1
  let main_v17 : IVec S_ 1 := (fun x v => Host.reduce IntOp.andi x v reducesTo_S125_S_d0 h_S_) main_v16 main_c_5
  let main_v18 : IVec S_ 1 := andi main_v13 main_v17
  let main_v19 : FVec F S64x125 .f32 := Host.absf main_arg4
  let main_cst_6 : FVec F S_ .f32 := constant S_ .f32 0x7F800000#32
  let main_v20 : FVec F S64x125 .f32 := broadcastInDim S64x125 ![] bcast_S_S64x125 main_cst_6
  let main_v21 : IVec S64x125 1 := cmpf .olt main_v19 main_v20
  let main_c_7 : IVec S_ 1 := constantI S_ 1 1#1
  let main_v22 : IVec S_ 1 := (fun x v => Host.reduce IntOp.andi x v reducesTo_S64x125_S_d0_1 h_S_) main_v21 main_c_7
  let main_v23 : IVec S_ 1 := andi main_v18 main_v22
  let main_v24 : FVec F S125 .f32 := Host.absf main_arg5
  let main_cst_8 : FVec F S_ .f32 := constant S_ .f32 0x7F800000#32
  let main_v25 : FVec F S125 .f32 := broadcastInDim S125 ![] bcast_S_S125 main_cst_8
  let main_v26 : IVec S125 1 := cmpf .olt main_v24 main_v25
  let main_c_9 : IVec S_ 1 := constantI S_ 1 1#1
  let main_v27 : IVec S_ 1 := (fun x v => Host.reduce IntOp.andi x v reducesTo_S125_S_d0 h_S_) main_v26 main_c_9
  let main_v28 : IVec S_ 1 := andi main_v23 main_v27
  let main_v29 : FVec F S125x96 .f32 := Host.absf main_arg6
  let main_cst_10 : FVec F S_ .f32 := constant S_ .f32 0x7F800000#32
  let main_v30 : FVec F S125x96 .f32 := broadcastInDim S125x96 ![] bcast_S_S125x96 main_cst_10
  let main_v31 : IVec S125x96 1 := cmpf .olt main_v29 main_v30
  let main_c_11 : IVec S_ 1 := constantI S_ 1 1#1
  let main_v32 : IVec S_ 1 := (fun x v => Host.reduce IntOp.andi x v reducesTo_S125x96_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16384x64 .f32) (main_arg1 : FVec F S8192x64 .f32) (main_arg2 : FVec F S64x125 .f32) (main_arg3 : FVec F S125 .f32) (main_arg4 : FVec F S64x125 .f32) (main_arg5 : FVec F S125 .f32) (main_arg6 : FVec F S125x96 .f32) (main_arg7 : FVec F S96 .f32) (main_arg8 : FVec F S125x96 .f32) (main_arg9 : FVec F S96 .f32) (main_arg10 : FVec F S125x96 .f32) (main_arg11 : FVec F S96 .f32) (main_arg12 : FVec F S125x96 .f32) (main_arg13 : FVec F S96 .f32) (main_arg14 : FVec F S96x64 .f32) (main_arg15 : FVec F S64 .f32) (main_arg16 : FVec F S96x64 .f32) (main_arg17 : FVec F S64 .f32) (main_arg18 : FVec F S96x64 .f32) (main_arg19 : FVec F S64 .f32) (main_arg20 : FVec F S96x64 .f32) (main_arg21 : FVec F S64 .f32) (main_arg22 : IVec S262144 32) (main_arg23 : IVec S262144 32) (main_arg24 : IVec S262144 32) (main_arg25 : IVec S262144 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x125 .f32 := Host.absf main_arg2
  let main_cst_2 : FVec F S_ .f32 := constant S_ .f32 0x7F800000#32
  let main_v10 : FVec F S64x125 .f32 := broadcastInDim S64x125 ![] bcast_S_S64x125 main_cst_2
  let main_v11 : IVec S64x125 1 := cmpf .olt main_v9 main_v10
  let main_c_3 : IVec S_ 1 := constantI S_ 1 1#1
  let main_v12 : IVec S_ 1 := (fun x v => Host.reduce IntOp.andi x v reducesTo_S64x125_S_d0_1 h_S_) main_v11 main_c_3
  let main_v13 : IVec S_ 1 := andi main_v8 main_v12
  let main_v14 : FVec F S125 .f32 := Host.absf main_arg3
  let main_cst_4 : FVec F S_ .f32 := constant S_ .f32 0x7F800000#32
  let main_v15 : FVec F S125 .f32 := broadcastInDim S125 ![] bcast_S_S125 main_cst_4
  let main_v16 : IVec S125 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x64 : Shape := ⟨2, ![16384, 64]⟩
abbrev S8192x64 : Shape := ⟨2, ![8192, 64]⟩
abbrev S64x125 : Shape := ⟨2, ![64, 125]⟩
abbrev S125 : Shape := ⟨1, ![125]⟩
abbrev S125x96 : Shape := ⟨2, ![125, 96]⟩
abbrev S96 : Shape := ⟨1, ![96]⟩
abbrev S96x64 : Shape := ⟨2, ![96, 64]⟩
abbrev S64 : Shape := ⟨1, ![64]⟩
abbrev S262144 : Shape := ⟨1, ![262144]⟩
abbrev S16384x125 : Shape := ⟨2, ![16384, 125]⟩
abbrev S1x125 : Shape := ⟨2, ![1, 125]⟩
abbrev S8192x125 : Shape := ⟨2, ![8192, 125]⟩
abbrev S_ : Shape := ⟨0, ![]⟩
abbrev S16384 : Shape := ⟨1, ![16384]⟩
abbrev S262144x1 : Shape := ⟨2, ![262144, 1]⟩
abbrev S8192 : Shape := ⟨1, ![8192]⟩
abbrev S16384x1 : Shape := ⟨2, ![16384, 1]⟩
abbrev S16384x96 : Shape := ⟨2, ![16384, 96]⟩
abbrev S262144x96 : Shape := ⟨2, ![262144, 96]⟩
abbrev S8192x96 : Shape := ⟨2, ![8192, 96]⟩
abbrev S8192x1 : Shape := ⟨2, ![8192, 1]⟩
abbrev S1x96 : Shape := ⟨2, ![1, 96]⟩
abbrev S262144x64 : Shape := ⟨2, ![262144, 64]⟩
abbrev S1x64 : Shape := ⟨2, ![1, 64]⟩
abbrev S16384x8192 : Shape := ⟨2, ![16384, 8192]⟩
abbrev S2048x64 : Shape := ⟨2, ![2048, 64]⟩
abbrev S2048x2048 : Shape := ⟨2, ![2048, 2048]⟩
abbrev S64x2048 : Shape := ⟨2, ![64, 2048]⟩
abbrev S134217728 : Shape := ⟨1, ![134217728]⟩

abbrev nBuf : Space → Nat
  | .hbm => 222
  | .vmem => 6
  | .smem => 0
  | _ => 0

abbrev hbmTy0_0 (i : Nat) : BufTy := match i % 128 with
  | 0 => ⟨S16384x64, .f32⟩
  | 1 => ⟨S8192x64, .f32⟩
  | 2 => ⟨S64x125, .f32⟩
  | 3 => ⟨S125, .f32⟩
  | 4 => ⟨S64x125, .f32⟩
  | 5 => ⟨S125, .f32⟩
  | 6 => ⟨S125x96, .f32⟩
  | 7 => ⟨S96, .f32⟩
  | 8 => ⟨S125x96, .f32⟩
  | 9 => ⟨S96, .f32⟩
  | 10 => ⟨S125x96, .f32⟩
  | 11 => ⟨S96, .f32⟩
  | 12 => ⟨S125x96, .f32⟩
  | 13 => ⟨S96, .f32⟩
  | 14 => ⟨S96x64, .f32⟩
  | 15 => ⟨S64, .f32⟩
  | 16 => ⟨S96x64, .f32⟩
  | 17 => ⟨S64, .f32⟩
  | 18 => ⟨S96x64, .f32⟩
  | 19 => ⟨S64, .f32⟩
  | 20 => ⟨S96x64, .f32⟩
  | 21 => ⟨S64, .f32⟩
  | 22 => ⟨S262144, .i32⟩
  | 23 => ⟨S262144, .i32⟩
  | 24 => ⟨S262144, .i32⟩
  | 25 => ⟨S262144, .i32⟩
  | 26 => ⟨S16384x125, .f32⟩
  | 27 => ⟨S1x125, .f32⟩
  | 28 => ⟨S16384x125, .f32⟩
  | 29 => ⟨S16384x125, .f32⟩
  | 30 => ⟨S8192x125, .f32⟩
  | 31 => ⟨S1x125, .f32⟩
  | 32 => ⟨S8192x125, .f32⟩
  | 33 => ⟨S8192x125, .f32⟩
  | 34 => ⟨S_, .f32⟩
  | 35 => ⟨S262144, .f32⟩
  | 36 => ⟨S_, .f32⟩
  | 37 => ⟨S16384, .f32⟩
  | 38 => ⟨S262144x1, .i32⟩
  | 39 => ⟨S16384, .f32⟩
  | 40 => ⟨S_, .f32⟩
  | 41 => ⟨S_, .f32⟩
  | 42 => ⟨S16384, .f32⟩
  | 43 => ⟨S16384, .f32⟩
  | 44 => ⟨S_, .f32⟩
  | 45 => ⟨S8192, .f32⟩
  | 46 => ⟨S262144x1, .i32⟩
  | 47 => ⟨S8192, .f32⟩
  | 48 => ⟨S_, .f32⟩
  | 49 => ⟨S_, .f32⟩
  | 50 => ⟨S8192, .f32⟩
  | 51 => ⟨S8192, .f32⟩
  | 52 => ⟨S16384, .f32⟩
  | 53 => ⟨S8192, .f32⟩
  | 54 => ⟨S_, .f32⟩
  | 55 => ⟨S262144, .f32⟩
  | 56 => ⟨S_, .f32⟩
  | 57 => ⟨S8192, .f32⟩
  | 58 => ⟨S262144x1, .i32⟩
  | 59 => ⟨S8192, .f32⟩
  | 60 => ⟨S_, .f32⟩
  | 61 => ⟨S_, .f32⟩
  | 62 => ⟨S8192, .f32⟩
  | 63 => ⟨S8192, .f32⟩
  | 64 => ⟨S_, .f32⟩
  | 65 => ⟨S16384, .f32⟩
  | 66 => ⟨S262144x1, .i32⟩
  | 67 => ⟨S16384, .f32⟩
  | 68 => ⟨S_, .f32⟩
  | 69 => ⟨S_, .f32⟩
  | 70 => ⟨S16384, .f32⟩
  | 71 => ⟨S16384, .f32⟩
  | 72 => ⟨S8192, .f32⟩
  | 73 => ⟨S16384, .f32⟩
  | 74 => ⟨S16384x1, .f32⟩
  | 75 => ⟨S16384x125, .f32⟩
  | 76 => ⟨S16384x125, .f32⟩
  | 77 => ⟨S16384x96, .f32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S262144x96, .f32⟩
  | 87 => ⟨S_, .f32⟩
  | 88 => ⟨S8192x96, .f32⟩
  | 89 => ⟨S262144x1, .i32⟩
  | 90 => ⟨S8192x96, .f32⟩
  | 91 => ⟨S8192x1, .f32⟩
  | 92 => ⟨S8192x96, .f32⟩
  | 93 => ⟨S8192x96, .f32⟩
  | 94 => ⟨S1x96, .f32⟩
  | 95 => ⟨S8192x96, .f32⟩
  | 96 => ⟨S8192x96, .f32⟩
  | 97 => ⟨S8192x1, .f32⟩
  | 98 => ⟨S8192x125, .f32⟩
  | 99 => ⟨S8192x125, .f32⟩
  | 100 => ⟨S8192x96, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144x96, .f32⟩
  | 110 => ⟨S_, .f32⟩
  | 111 => ⟨S16384x96, .f32⟩
  | 112 => ⟨S262144x1, .i32⟩
  | 113 => ⟨S16384x96, .f32⟩
  | 114 => ⟨S16384x1, .f32⟩
  | 115 => ⟨S16384x96, .f32⟩
  | 116 => ⟨S16384x96, .f32⟩
  | 117 => ⟨S1x96, .f32⟩
  | 118 => ⟨S16384x96, .f32⟩
  | 119 => ⟨S16384x96, .f32⟩
  | 120 => ⟨S16384x96, .f32⟩
  | 121 => ⟨S1x96, .f32⟩
  | 122 => ⟨S16384x96, .f32⟩
  | 123 => ⟨S16384x96, .f32⟩
  | 124 => ⟨S16384x96, .f32⟩
  | 125 => ⟨S_, .f32⟩
  | 126 => ⟨S16384x96, .f32⟩
  | 127 => ⟨S16384x96, .f32⟩
  | _ => ⟨S16384x64, .f32⟩

abbrev hbmTy0_1 (i : Nat) : BufTy := match i % 128 with
  | 0 => ⟨S8192x96, .f32⟩
  | 1 => ⟨S1x96, .f32⟩
  | 2 => ⟨S8192x96, .f32⟩
  | 3 => ⟨S8192x96, .f32⟩
  | 4 => ⟨S8192x96, .f32⟩
  | 5 => ⟨S_, .f32⟩
  | 6 => ⟨S8192x96, .f32⟩
  | 7 => ⟨S8192x96, .f32⟩
  | 8 => ⟨S16384x1, .f32⟩
  | 9 => ⟨S16384x96, .f32⟩
  | 10 => ⟨S16384x96, .f32⟩
  | 11 => ⟨S16384x64, .f32⟩
  | 12 => ⟨S_, .i32⟩
  | 13 => ⟨S262144, .i32⟩
  | 14 => ⟨S262144, .i1⟩
  | 15 => ⟨S_, .i32⟩
  | 16 => ⟨S262144, .i32⟩
  | 17 => ⟨S262144, .i32⟩
  | 18 => ⟨S262144, .i32⟩
  | 19 => ⟨S262144x1, .i32⟩
  | 20 => ⟨S262144x64, .f32⟩
  | 21 => ⟨S_, .f32⟩
  | 22 => ⟨S8192x64, .f32⟩
  | 23 => ⟨S262144x1, .i32⟩
  | 24 => ⟨S8192x64, .f32⟩
  | 25 => ⟨S8192x1, .f32⟩
  | 26 => ⟨S8192x64, .f32⟩
  | 27 => ⟨S8192x64, .f32⟩
  | 28 => ⟨S1x64, .f32⟩
  | 29 => ⟨S8192x64, .f32⟩
  | 30 => ⟨S8192x64, .f32⟩
  | 31 => ⟨S8192x1, .f32⟩
  | 32 => ⟨S8192x96, .f32⟩
  | 33 => ⟨S8192x96, .f32⟩
  | 34 => ⟨S8192x64, .f32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S262144x64, .f32⟩
  | 44 => ⟨S_, .f32⟩
  | 45 => ⟨S16384x64, .f32⟩
  | 46 => ⟨S262144x1, .i32⟩
  | 47 => ⟨S16384x64, .f32⟩
  | 48 => ⟨S16384x1, .f32⟩
  | 49 => ⟨S16384x64, .f32⟩
  | 50 => ⟨S16384x64, .f32⟩
  | 51 => ⟨S1x64, .f32⟩
  | 52 => ⟨S16384x64, .f32⟩
  | 53 => ⟨S16384x64, .f32⟩
  | 54 => ⟨S16384x64, .f32⟩
  | 55 => ⟨S1x64, .f32⟩
  | 56 => ⟨S16384x64, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S8192x64, .f32⟩
  | 63 => ⟨S1x64, .f32⟩
  | 64 => ⟨S8192x64, .f32⟩
  | 65 => ⟨S8192x64, .f32⟩
  | 66 => ⟨S8192x64, .f32⟩
  | 67 => ⟨S_, .f32⟩
  | 68 => ⟨S8192x64, .f32⟩
  | 69 => ⟨S8192x64, .f32⟩
  | 70 => ⟨S16384x64, .f32⟩
  | 71 => ⟨S_, .f32⟩
  | 72 => ⟨S16384, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x64, .f32⟩
  | 79 => ⟨S16384x64, .f32⟩
  | 80 => ⟨S16384x64, .bf16⟩
  | 81 => ⟨S8192x64, .f32⟩
  | 82 => ⟨S_, .f32⟩
  | 83 => ⟨S8192, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x64, .f32⟩
  | 90 => ⟨S8192x64, .f32⟩
  | 91 => ⟨S8192x64, .bf16⟩
  | 92 => ⟨S16384x8192, .f32⟩
  | 93 => ⟨S134217728, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x2048, .f32⟩
  | .local _ .vmem, ⟨5, _⟩ => ⟨S2048x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_4 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_v23 : Ref sig .tc := ⟨.hbm, 63, rfl⟩
abbrev main_cst_7 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_8 : Ref sig .tc := ⟨.hbm, 68, rfl⟩
abbrev main_call3_v0 : Ref sig .tc := ⟨.hbm, 69, rfl⟩
abbrev main_call3_v1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c : Ref sig .tc := ⟨.hbm, 78, rfl⟩
abbrev main_v34 : Ref sig .tc := ⟨.hbm, 79, rfl⟩
abbrev main_v35 : Ref sig .tc := ⟨.hbm, 80, rfl⟩
abbrev main_c_9 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_10 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_11 : Ref sig .tc := ⟨.hbm, 101, rfl⟩
abbrev main_v54 : Ref sig .tc := ⟨.hbm, 102, rfl⟩
abbrev main_v55 : Ref sig .tc := ⟨.hbm, 103, rfl⟩
abbrev main_c_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_13 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call4_cst : Ref sig .tc := ⟨.hbm, 125, rfl⟩
abbrev main_call4_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_call5_cst : Ref sig .tc := ⟨.hbm, 133, rfl⟩
abbrev main_call5_v0 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_14 : Ref sig .tc := ⟨.hbm, 140, rfl⟩
abbrev main_v86 : Ref sig .tc := ⟨.hbm, 141, rfl⟩
abbrev main_v87 : Ref sig .tc := ⟨.hbm, 142, rfl⟩
abbrev main_c_15 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_16 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_17 : Ref sig .tc := ⟨.hbm, 163, rfl⟩
abbrev main_v106 : Ref sig .tc := ⟨.hbm, 164, rfl⟩
abbrev main_v107 : Ref sig .tc := ⟨.hbm, 165, rfl⟩
abbrev main_c_18 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_19 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_call6_cst : Ref sig .tc := ⟨.hbm, 187, rfl⟩
abbrev main_call6_v0 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_call7_cst : Ref sig .tc := ⟨.hbm, 195, rfl⟩
abbrev main_call7_v0 : Ref sig .tc := ⟨.hbm, 196, rfl⟩
abbrev main_v133 : Ref sig .tc := ⟨.hbm, 197, rfl⟩
abbrev main_v134 : Ref sig .tc := ⟨.hbm, 198, rfl⟩
abbrev main_cst_20 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_21 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_22 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_cst_23 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S125_S1x125_1 : S125.BroadcastsInDim S1x125 (![1] : Fin 1 → Fin S1x125.rank)
  bcast_S1x125_S16384x125_0_1 : S1x125.BroadcastsInDim S16384x125 (![0, 1] : Fin 2 → Fin S16384x125.rank)
  bcast_S1x125_S8192x125_0_1 : S1x125.BroadcastsInDim S8192x125 (![0, 1] : Fin 2 → Fin S8192x125.rank)
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S_S8192 : S_.BroadcastsInDim S8192 (![] : Fin 0 → Fin S8192.rank)
  bcast_S16384_S16384x1_0 : S16384.BroadcastsInDim S16384x1 (![0] : Fin 1 → Fin S16384x1.rank)
  bcast_S16384x1_S16384x125_0_1 : S16384x1.BroadcastsInDim S16384x125 (![0, 1] : Fin 2 → Fin S16384x125.rank)
  bcast_S_S8192x96 : S_.BroadcastsInDim S8192x96 (![] : Fin 0 → Fin S8192x96.rank)
  bcast_S8192_S8192x1_0 : S8192.BroadcastsInDim S8192x1 (![0] : Fin 1 → Fin S8192x1.rank)
  bcast_S8192x1_S8192x96_0_1 : S8192x1.BroadcastsInDim S8192x96 (![0, 1] : Fin 2 → Fin S8192x96.rank)
  bcast_S96_S1x96_1 : S96.BroadcastsInDim S1x96 (![1] : Fin 1 → Fin S1x96.rank)
  bcast_S1x96_S8192x96_0_1 : S1x96.BroadcastsInDim S8192x96 (![0, 1] : Fin 2 → Fin S8192x96.rank)
  bcast_S8192x1_S8192x125_0_1 : S8192x1.BroadcastsInDim S8192x125 (![0, 1] : Fin 2 → Fin S8192x125.rank)
  bcast_S_S16384x96 : S_.BroadcastsInDim S16384x96 (![] : Fin 0 → Fin S16384x96.rank)
  bcast_S16384x1_S16384x96_0_1 : S16384x1.BroadcastsInDim S16384x96 (![0, 1] : Fin 2 → Fin S16384x96.rank)
  bcast_S1x96_S16384x96_0_1 : S1x96.BroadcastsInDim S16384x96 (![0, 1] : Fin 2 → Fin S16384x96.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384x1 : S_.BroadcastsInDim S16384x1 (![] : Fin 0 → Fin S16384x1.rank)
  bitsLt_bf16_f32 : FTy.bits .bf16 < FTy.bits .f32
  reducesTo_S8192x64_S8192_d1 : S8192x64.ReducesTo [1] S8192
  bcast_S_S8192x1 : S_.BroadcastsInDim S8192x1 (![] : Fin 0 → Fin S8192x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  inb_S2048x2048_S2048x2048_0_0 : ∀ a, (![0, 0] : Fin 2 → Nat) a + S2048x2048.size a ≤ S2048x2048.size a
  h_S2048x2048 : 0 < S2048x2048.numel
  shapeCasts_S16384x8192_S134217728 : S16384x8192.ShapeCasts S134217728
  dot_S16384x64_S64x125_S16384x125_1_0_0_1_n_n_wf : DotDims.WF S16384x64 S64x125 S16384x125 [1] [0] [0] [1] [] []
  dot_S8192x64_S64x125_S8192x125_1_0_0_1_n_n_wf : DotDims.WF S8192x64 S64x125 S8192x125 [1] [0] [0] [1] [] []
  scatter_S16384_S262144x1_S262144_n_0_0_1_wf : ScatterDims.WF S16384 S262144x1 S262144 [] [0] [0] 1
  scatter_S8192_S262144x1_S262144_n_0_0_1_wf : ScatterDims.WF S8192 S262144x1 S262144 [] [0] [0] 1
  dot_S16384x125_S125x96_S16384x96_1_0_0_1_n_n_wf : DotDims.WF S16384x125 S125x96 S16384x96 [1] [0] [0] [1] [] []
  gather_S16384x96_S262144x1_S262144x96_1_0_n_n_0_1_196_wf : GatherDims.WF S16384x96 S262144x1 S262144x96 [1] [0] [] [0] [] 1 ![1, 96]
  scatter_S8192x96_S262144x1_S262144x96_1_0_0_1_wf : ScatterDims.WF S8192x96 S262144x1 S262144x96 [1] [0] [0] 1
  dot_S8192x125_S125x96_S8192x96_1_0_0_1_n_n_wf : DotDims.WF S8192x125 S125x96 S8192x96 [1] [0] [0] [1] [] []
  gather_S8192x96_S262144x1_S262144x96_1_0_n_n_0_1_196_wf : GatherDims.WF S8192x96 S262144x1 S262144x96 [1] [0] [] [0] [] 1 ![1, 96]
  scatter_S16384x96_S262144x1_S262144x96_1_0_0_1_wf : ScatterDims.WF S16384x96 S262144x1 S262144x96 [1] [0] [0] 1
  dot_S16384x96_S96x64_S16384x64_1_0_0_1_n_n_wf : DotDims.WF S16384x96 S96x64 S16384x64 [1] [0] [0] [1] [] []
  gather_S16384x64_S262144x1_S262144x64_1_0_n_n_0_1_164_wf : GatherDims.WF S16384x64 S262144x1 S262144x64 [1] [0] [] [0] [] 1 ![1, 64]
  scatter_S8192x64_S262144x1_S262144x64_1_0_0_1_wf : ScatterDims.WF S8192x64 S262144x1 S262144x64 [1] [0] [0] 1
  dot_S8192x96_S96x64_S8192x64_1_0_0_1_n_n_wf : DotDims.WF S8192x96 S96x64 S8192x64 [1] [0] [0] [1] [] []
  gather_S8192x64_S262144x1_S262144x64_1_0_n_n_0_1_164_wf : GatherDims.WF S8192x64 S262144x1 S262144x64 [1] [0] [] [0] [] 1 ![1, 64]
  scatter_S16384x64_S262144x1_S262144x64_1_0_0_1_wf : ScatterDims.WF S16384x64 S262144x1 S262144x64 [1] [0] [0] 1
  dot_S2048x64_S64x2048_S2048x2048_1_0_0_1_n_n_wf : DotDims.WF S2048x64 S64x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .bf16 = 32 ∨ (Rect.block (s := S16384x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .bf16 = 32 ∨ (Rect.block (s := S8192x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x8192.size a
  hwx0_2 : ∀ i : grid0.Coords, EltTy.bits .f32 = 32 ∨ (Rect.block (s := S16384x8192) S2048x2048.size (cc0_transform_2 i) (hinb0_2 i)).WholeWords (EltTy.packing .f32)

variable [Facts₀]

def dot_S16384x64_S64x125_S16384x125_1_0_0_1_n_n : DotDims S16384x64 S64x125 S16384x125 where
  lhsContracting := [1]
  rhsContracting := [0]
  lhsNonContracting := [0]
  rhsNonContracting := [1]
  lhsBatch := []
  rhsBatch := []
  wf := dot_S16384x64_S64x125_S16384x125_1_0_0_1_n_n_wf
def dot_S8192x64_S64x125_S8192x125_1_0_0_1_n_n : DotDims S8192x64 S64x125 S8192x125 where
  lhsContracting := [1]
  rhsContracting := [0]
  lhsNonContracting := [0]
  rhsNonContracting := [1]
  lhsBatch := []
  rhsBatch := []
  wf := dot_S8192x64_S64x125_S8192x125_1_0_0_1_n_n_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S16384x125_S125x96_S16384x96_1_0_0_1_n_n : DotDims S16384x125 S125x96 S16384x96 where
  lhsContracting := [1]
  rhsContracting := [0]
  lhsNonContracting := [0]
  rhsNonContracting := [1]
  lhsBatch := []
  rhsBatch := []
  wf := dot_S16384x125_S125x96_S16384x96_1_0_0_1_n_n_wf
def gather_S16384x96_S262144x1_S262144x96_1_0_n_n_0_1_196 : GatherDims S16384x96 S262144x1 S262144x96 where
  offsetDims := [1]
  collapsedSliceDims := [0]
  operandBatchingDims := []
  startIndicesBatchingDims := []
  startIndexMap := [0]
  indexVectorDim := 1
  sliceSizes := ![1, 96]
  wf := gather_S16384x96_S262144x1_S262144x96_1_0_n_n_0_1_196_wf
def scatter_S8192x96_S262144x1_S262144x96_1_0_0_1 : ScatterDims S8192x96 S262144x1 S262144x96 where
  updateWindowDims := [1]
  insertedWindowDims := [0]
  scatterDimsToOperandDims := [0]
  indexVectorDim := 1
  wf := scatter_S8192x96_S262144x1_S262144x96_1_0_0_1_wf
def dot_S8192x125_S125x96_S8192x96_1_0_0_1_n_n : DotDims S8192x125 S125x96 S8192x96 where
  lhsContracting := [1]
  rhsContracting := [0]
  lhsNonContracting := [0]
  rhsNonContracting := [1]
  lhsBatch := []
  rhsBatch := []
  wf := dot_S8192x125_S125x96_S8192x96_1_0_0_1_n_n_wf
def gather_S8192x96_S262144x1_S262144x96_1_0_n_n_0_1_196 : GatherDims S8192x96 S262144x1 S262144x96 where
  offsetDims := [1]
  collapsedSliceDims := [0]
  operandBatchingDims := []
  startIndicesBatchingDims := []
  startIndexMap := [0]
  indexVectorDim := 1
  sliceSizes := ![1, 96]
  wf := gather_S8192x96_S262144x1_S262144x96_1_0_n_n_0_1_196_wf
def scatter_S16384x96_S262144x1_S262144x96_1_0_0_1 : ScatterDims S16384x96 S262144x1 S262144x96 where
  updateWindowDims := [1]
  insertedWindowDims := [0]
  scatterDimsToOperandDims := [0]
  indexVectorDim := 1
  wf := scatter_S16384x96_S262144x1_S262144x96_1_0_0_1_wf
def dot_S16384x96_S96x64_S16384x64_1_0_0_1_n_n : DotDims S16384x96 S96x64 S16384x64 where
  lhsContracting := [1]
  rhsContracting := [0]
  lhsNonContracting := [0]
  rhsNonContracting := [1]
  lhsBatch := []
  rhsBatch := []
  wf := dot_S16384x96_S96x64_S16384x64_1_0_0_1_n_n_wf
def gather_S16384x64_S262144x1_S262144x64_1_0_n_n_0_1_164 : GatherDims S16384x64 S262144x1 S262144x64 where
  offsetDims := [1]
  collapsedSliceDims := [0]
  operandBatchingDims := []
  startIndicesBatchingDims := []
  startIndexMap := [0]
  indexVectorDim := 1
  sliceSizes := ![1, 64]
  wf := gather_S16384x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x96_S96x64_S8192x64_1_0_0_1_n_n : DotDims S8192x96 S96x64 S8192x64 where
  lhsContracting := [1]
  rhsContracting := [0]
  lhsNonContracting := [0]
  rhsNonContracting := [1]
  lhsBatch := []
  rhsBatch := []
  wf := dot_S8192x96_S96x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S16384x64_S262144x1_S262144x64_1_0_0_1 : ScatterDims S16384x64 S262144x1 S262144x64 where
  updateWindowDims := [1]
  insertedWindowDims := [0]
  scatterDimsToOperandDims := [0]
  indexVectorDim := 1
  wf := scatter_S16384x64_S262144x1_S262144x64_1_0_0_1_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_v142) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v151) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v152) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S8192x64 : Shape := ⟨2, ![8192, 64]⟩
abbrev S64x125 : Shape := ⟨2, ![64, 125]⟩
abbrev S125 : Shape := ⟨1, ![125]⟩
abbrev S125x96 : Shape := ⟨2, ![125, 96]⟩
abbrev S96 : Shape := ⟨1, ![96]⟩
abbrev S96x64 : Shape := ⟨2, ![96, 64]⟩
abbrev S64 : Shape := ⟨1, ![64]⟩
abbrev S262144 : Shape := ⟨1, ![262144]⟩
abbrev S16384x125 : Shape := ⟨2, ![16384, 125]⟩
abbrev S1x125 : Shape := ⟨2, ![1, 125]⟩
abbrev S8192x125 : Shape := ⟨2, ![8192, 125]⟩
abbrev S_ : Shape := ⟨0, ![]⟩
abbrev S16384 : Shape := ⟨1, ![16384]⟩
abbrev S262144x1 : Shape := ⟨2, ![262144, 1]⟩
abbrev S8192 : Shape := ⟨1, ![8192]⟩
abbrev S16384x1 : Shape := ⟨2, ![16384, 1]⟩
abbrev S16384x96 : Shape := ⟨2, ![16384, 96]⟩
abbrev S262144x96 : Shape := ⟨2, ![262144, 96]⟩
abbrev S8192x96 : Shape := ⟨2, ![8192, 96]⟩
abbrev S8192x1 : Shape := ⟨2, ![8192, 1]⟩
abbrev S1x96 : Shape := ⟨2, ![1, 96]⟩
abbrev S262144x64 : Shape := ⟨2, ![262144, 64]⟩
abbrev S1x64 : Shape := ⟨2, ![1, 64]⟩
abbrev S64x8192 : Shape := ⟨2, ![64, 8192]⟩
abbrev S16384x8192 : Shape := ⟨2, ![16384, 8192]⟩
abbrev S134217728 : Shape := ⟨1, ![134217728]⟩

abbrev nBuf : Space → Nat
  | .hbm => 261
  | .vmem => 0
  | .smem => 0
  | _ => 0

abbrev hbmTy0_0 (i : Nat) : BufTy := match i % 128 with
  | 0 => ⟨S16384x64, .f32⟩
  | 1 => ⟨S8192x64, .f32⟩
  | 2 => ⟨S64x125, .f32⟩
  | 3 => ⟨S125, .f32⟩
  | 4 => ⟨S64x125, .f32⟩
  | 5 => ⟨S125, .f32⟩
  | 6 => ⟨S125x96, .f32⟩
  | 7 => ⟨S96, .f32⟩
  | 8 => ⟨S125x96, .f32⟩
  | 9 => ⟨S96, .f32⟩
  | 10 => ⟨S125x96, .f32⟩
  | 11 => ⟨S96, .f32⟩
  | 12 => ⟨S125x96, .f32⟩
  | 13 => ⟨S96, .f32⟩
  | 14 => ⟨S96x64, .f32⟩
  | 15 => ⟨S64, .f32⟩
  | 16 => ⟨S96x64, .f32⟩
  | 17 => ⟨S64, .f32⟩
  | 18 => ⟨S96x64, .f32⟩
  | 19 => ⟨S64, .f32⟩
  | 20 => ⟨S96x64, .f32⟩
  | 21 => ⟨S64, .f32⟩
  | 22 => ⟨S262144, .i32⟩
  | 23 => ⟨S262144, .i32⟩
  | 24 => ⟨S262144, .i32⟩
  | 25 => ⟨S262144, .i32⟩
  | 26 => ⟨S16384x125, .f32⟩
  | 27 => ⟨S1x125, .f32⟩
  | 28 => ⟨S16384x125, .f32⟩
  | 29 => ⟨S16384x125, .f32⟩
  | 30 => ⟨S8192x125, .f32⟩
  | 31 => ⟨S1x125, .f32⟩
  | 32 => ⟨S8192x125, .f32⟩
  | 33 => ⟨S8192x125, .f32⟩
  | 34 => ⟨S_, .f32⟩
  | 35 => ⟨S262144, .f32⟩
  | 36 => ⟨S_, .f32⟩
  | 37 => ⟨S16384, .f32⟩
  | 38 => ⟨S262144x1, .i32⟩
  | 39 => ⟨S16384, .f32⟩
  | 40 => ⟨S_, .f32⟩
  | 41 => ⟨S_, .f32⟩
  | 42 => ⟨S16384, .f32⟩
  | 43 => ⟨S16384, .f32⟩
  | 44 => ⟨S_, .f32⟩
  | 45 => ⟨S8192, .f32⟩
  | 46 => ⟨S262144x1, .i32⟩
  | 47 => ⟨S8192, .f32⟩
  | 48 => ⟨S_, .f32⟩
  | 49 => ⟨S_, .f32⟩
  | 50 => ⟨S8192, .f32⟩
  | 51 => ⟨S8192, .f32⟩
  | 52 => ⟨S16384, .f32⟩
  | 53 => ⟨S16384x1, .f32⟩
  | 54 => ⟨S16384x125, .f32⟩
  | 55 => ⟨S16384x125, .f32⟩
  | 56 => ⟨S16384x96, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x96, .f32⟩
  | 66 => ⟨S_, .f32⟩
  | 67 => ⟨S8192x96, .f32⟩
  | 68 => ⟨S262144x1, .i32⟩
  | 69 => ⟨S8192x96, .f32⟩
  | 70 => ⟨S8192, .f32⟩
  | 71 => ⟨S8192x1, .f32⟩
  | 72 => ⟨S8192x96, .f32⟩
  | 73 => ⟨S8192x96, .f32⟩
  | 74 => ⟨S1x96, .f32⟩
  | 75 => ⟨S8192x96, .f32⟩
  | 76 => ⟨S8192x96, .f32⟩
  | 77 => ⟨S_, .f32⟩
  | 78 => ⟨S262144, .f32⟩
  | 79 => ⟨S_, .f32⟩
  | 80 => ⟨S8192, .f32⟩
  | 81 => ⟨S262144x1, .i32⟩
  | 82 => ⟨S8192, .f32⟩
  | 83 => ⟨S_, .f32⟩
  | 84 => ⟨S_, .f32⟩
  | 85 => ⟨S8192, .f32⟩
  | 86 => ⟨S8192, .f32⟩
  | 87 => ⟨S_, .f32⟩
  | 88 => ⟨S16384, .f32⟩
  | 89 => ⟨S262144x1, .i32⟩
  | 90 => ⟨S16384, .f32⟩
  | 91 => ⟨S_, .f32⟩
  | 92 => ⟨S_, .f32⟩
  | 93 => ⟨S16384, .f32⟩
  | 94 => ⟨S16384, .f32⟩
  | 95 => ⟨S8192, .f32⟩
  | 96 => ⟨S8192x1, .f32⟩
  | 97 => ⟨S8192x125, .f32⟩
  | 98 => ⟨S8192x125, .f32⟩
  | 99 => ⟨S8192x96, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S262144x96, .f32⟩
  | 109 => ⟨S_, .f32⟩
  | 110 => ⟨S16384x96, .f32⟩
  | 111 => ⟨S262144x1, .i32⟩
  | 112 => ⟨S16384x96, .f32⟩
  | 113 => ⟨S16384, .f32⟩
  | 114 => ⟨S16384x1, .f32⟩
  | 115 => ⟨S16384x96, .f32⟩
  | 116 => ⟨S16384x96, .f32⟩
  | 117 => ⟨S1x96, .f32⟩
  | 118 => ⟨S16384x96, .f32⟩
  | 119 => ⟨S16384x96, .f32⟩
  | 120 => ⟨S16384x96, .f32⟩
  | 121 => ⟨S1x96, .f32⟩
  | 122 => ⟨S16384x96, .f32⟩
  | 123 => ⟨S16384x96, .f32⟩
  | 124 => ⟨S16384x96, .f32⟩
  | 125 => ⟨S_, .f32⟩
  | 126 => ⟨S16384x96, .f32⟩
  | 127 => ⟨S16384x96, .f32⟩
  | _ => ⟨S16384x64, .f32⟩

abbrev hbmTy0_1 (i : Nat) : BufTy := match i % 128 with
  | 0 => ⟨S8192x96, .f32⟩
  | 1 => ⟨S1x96, .f32⟩
  | 2 => ⟨S8192x96, .f32⟩
  | 3 => ⟨S8192x96, .f32⟩
  | 4 => ⟨S8192x96, .f32⟩
  | 5 => ⟨S_, .f32⟩
  | 6 => ⟨S8192x96, .f32⟩
  | 7 => ⟨S8192x96, .f32⟩
  | 8 => ⟨S_, .f32⟩
  | 9 => ⟨S262144, .f32⟩
  | 10 => ⟨S_, .f32⟩
  | 11 => ⟨S16384, .f32⟩
  | 12 => ⟨S262144x1, .i32⟩
  | 13 => ⟨S16384, .f32⟩
  | 14 => ⟨S_, .f32⟩
  | 15 => ⟨S_, .f32⟩
  | 16 => ⟨S16384, .f32⟩
  | 17 => ⟨S16384, .f32⟩
  | 18 => ⟨S_, .f32⟩
  | 19 => ⟨S8192, .f32⟩
  | 20 => ⟨S262144x1, .i32⟩
  | 21 => ⟨S8192, .f32⟩
  | 22 => ⟨S_, .f32⟩
  | 23 => ⟨S_, .f32⟩
  | 24 => ⟨S8192, .f32⟩
  | 25 => ⟨S8192, .f32⟩
  | 26 => ⟨S16384, .f32⟩
  | 27 => ⟨S16384x1, .f32⟩
  | 28 => ⟨S16384x96, .f32⟩
  | 29 => ⟨S16384x96, .f32⟩
  | 30 => ⟨S16384x64, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x64, .f32⟩
  | 40 => ⟨S_, .f32⟩
  | 41 => ⟨S8192x64, .f32⟩
  | 42 => ⟨S262144x1, .i32⟩
  | 43 => ⟨S8192x64, .f32⟩
  | 44 => ⟨S8192, .f32⟩
  | 45 => ⟨S8192x1, .f32⟩
  | 46 => ⟨S8192x64, .f32⟩
  | 47 => ⟨S8192x64, .f32⟩
  | 48 => ⟨S1x64, .f32⟩
  | 49 => ⟨S8192x64, .f32⟩
  | 50 => ⟨S8192x64, .f32⟩
  | 51 => ⟨S_, .f32⟩
  | 52 => ⟨S262144, .f32⟩
  | 53 => ⟨S_, .f32⟩
  | 54 => ⟨S8192, .f32⟩
  | 55 => ⟨S262144x1, .i32⟩
  | 56 => ⟨S8192, .f32⟩
  | 57 => ⟨S_, .f32⟩
  | 58 => ⟨S_, .f32⟩
  | 59 => ⟨S8192, .f32⟩
  | 60 => ⟨S8192, .f32⟩
  | 61 => ⟨S_, .f32⟩
  | 62 => ⟨S16384, .f32⟩
  | 63 => ⟨S262144x1, .i32⟩
  | 64 => ⟨S16384, .f32⟩
  | 65 => ⟨S_, .f32⟩
  | 66 => ⟨S_, .f32⟩
  | 67 => ⟨S16384, .f32⟩
  | 68 => ⟨S16384, .f32⟩
  | 69 => ⟨S8192, .f32⟩
  | 70 => ⟨S8192x1, .f32⟩
  | 71 => ⟨S8192x96, .f32⟩
  | 72 => ⟨S8192x96, .f32⟩
  | 73 => ⟨S8192x64, .f32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144x64, .f32⟩
  | 83 => ⟨S_, .f32⟩
  | 84 => ⟨S16384x64, .f32⟩
  | 85 => ⟨S262144x1, .i32⟩
  | 86 => ⟨S16384x64, .f32⟩
  | 87 => ⟨S16384, .f32⟩
  | 88 => ⟨S16384x1, .f32⟩
  | 89 => ⟨S16384x64, .f32⟩
  | 90 => ⟨S16384x64, .f32⟩
  | 91 => ⟨S1x64, .f32⟩
  | 92 => ⟨S16384x64, .f32⟩
  | 93 => ⟨S16384x64, .f32⟩
  | 94 => ⟨S16384x64, .f32⟩
  | 95 => ⟨S1x64, .f32⟩
  | 96 => ⟨S16384x64, .f32⟩
  | 97 => ⟨S16384x64, .f32⟩
  | 98 => ⟨S16384x64, .f32⟩
  | 99 => ⟨S_, .f32⟩
  | 100 => ⟨S16384x64, .f32⟩
  | 101 => ⟨S16384x64, .f32⟩
  | 102 => ⟨S8192x64, .f32⟩
  | 103 => ⟨S1x64, .f32⟩
  | 104 => ⟨S8192x64, .f32⟩
  | 105 => ⟨S8192x64, .f32⟩
  | 106 => ⟨S8192x64, .f32⟩
  | 107 => ⟨S_, .f32⟩
  | 108 => ⟨S8192x64, .f32⟩
  | 109 => ⟨S8192x64, .f32⟩
  | 110 => ⟨S16384x64, .f32⟩
  | 111 => ⟨S_, .f32⟩
  | 112 => ⟨S16384, .f32⟩
  | 113 => ⟨S16384x1, .f32⟩
  | 114 => ⟨S16384x1, .f32⟩
  | 115 => ⟨S_, .f32⟩
  | 116 => ⟨S16384x1, .f32⟩
  | 117 => ⟨S16384x1, .f32⟩
  | 118 => ⟨S16384x64, .f32⟩
  | 119 => ⟨S16384x64, .f32⟩
  | 120 => ⟨S8192x64, .f32⟩
  | 121 => ⟨S_, .f32⟩
  | 122 => ⟨S8192, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S16384x64, .f32⟩

abbrev hbmTy0_2 (i : Nat) : BufTy := match i % 128 with
  | 0 => ⟨S8192x64, .f32⟩
  | 1 => ⟨S8192x64, .f32⟩
  | 2 => ⟨S64x8192, .f32⟩
  | 3 => ⟨S16384x8192, .f32⟩
  | 4 => ⟨S134217728, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c : Ref sig .tc := ⟨.hbm, 57, rfl⟩
abbrev main_v22 : Ref sig .tc := ⟨.hbm, 58, rfl⟩
abbrev main_v23 : Ref sig .tc := ⟨.hbm, 59, rfl⟩
abbrev main_c_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_6 : Ref sig .tc := ⟨.hbm, 77, rfl⟩
abbrev main_v39 : Ref sig .tc := ⟨.hbm, 78, rfl⟩
abbrev main_cst_7 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_8 : Ref sig .tc := ⟨.hbm, 83, rfl⟩
abbrev main_call2_v0 : Ref sig .tc := ⟨.hbm, 84, rfl⟩
abbrev main_call2_v1 : Ref sig .tc := ⟨.hbm, 85, rfl⟩
abbrev main_v43 : Ref sig .tc := ⟨.hbm, 86, rfl⟩
abbrev main_cst_9 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_10 : Ref sig .tc := ⟨.hbm, 91, rfl⟩
abbrev main_call3_v0 : Ref sig .tc := ⟨.hbm, 92, rfl⟩
abbrev main_call3_v1 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_11 : Ref sig .tc := ⟨.hbm, 100, rfl⟩
abbrev main_v53 : Ref sig .tc := ⟨.hbm, 101, rfl⟩
abbrev main_v54 : Ref sig .tc := ⟨.hbm, 102, rfl⟩
abbrev main_c_12 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_13 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call4_cst : Ref sig .tc := ⟨.hbm, 125, rfl⟩
abbrev main_call4_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_call5_cst : Ref sig .tc := ⟨.hbm, 133, rfl⟩
abbrev main_call5_v0 : Ref sig .tc := ⟨.hbm, 134, rfl⟩
abbrev main_v81 : Ref sig .tc := ⟨.hbm, 135, rfl⟩
abbrev main_cst_14 : Ref sig .tc := ⟨.hbm, 136, rfl⟩
abbrev main_v82 : Ref sig .tc := ⟨.hbm, 137, rfl⟩
abbrev main_cst_15 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_16 : Ref sig .tc := ⟨.hbm, 142, rfl⟩
abbrev main_call6_v0 : Ref sig .tc := ⟨.hbm, 143, rfl⟩
abbrev main_call6_v1 : Ref sig .tc := ⟨.hbm, 144, rfl⟩
abbrev main_v86 : Ref sig .tc := ⟨.hbm, 145, rfl⟩
abbrev main_cst_17 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_18 : Ref sig .tc := ⟨.hbm, 150, rfl⟩
abbrev main_call7_v0 : Ref sig .tc := ⟨.hbm, 151, rfl⟩
abbrev main_call7_v1 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_19 : Ref sig .tc := ⟨.hbm, 159, rfl⟩
abbrev main_v96 : Ref sig .tc := ⟨.hbm, 160, rfl⟩
abbrev main_v97 : Ref sig .tc := ⟨.hbm, 161, rfl⟩
abbrev main_c_20 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_21 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_22 : Ref sig .tc := ⟨.hbm, 179, rfl⟩
abbrev main_v113 : Ref sig .tc := ⟨.hbm, 180, rfl⟩
abbrev main_cst_23 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_24 : Ref sig .tc := ⟨.hbm, 185, rfl⟩
abbrev main_call8_v0 : Ref sig .tc := ⟨.hbm, 186, rfl⟩
abbrev main_call8_v1 : Ref sig .tc := ⟨.hbm, 187, rfl⟩
abbrev main_v117 : Ref sig .tc := ⟨.hbm, 188, rfl⟩
abbrev main_cst_25 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_26 : Ref sig .tc := ⟨.hbm, 193, rfl⟩
abbrev main_call9_v0 : Ref sig .tc := ⟨.hbm, 194, rfl⟩
abbrev main_call9_v1 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_c_27 : Ref sig .tc := ⟨.hbm, 202, rfl⟩
abbrev main_v127 : Ref sig .tc := ⟨.hbm, 203, rfl⟩
abbrev main_v128 : Ref sig .tc := ⟨.hbm, 204, rfl⟩
abbrev main_c_28 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_cst_29 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call10_cst : Ref sig .tc := ⟨.hbm, 227, rfl⟩
abbrev main_call10_v0 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_call11_cst : Ref sig .tc := ⟨.hbm, 235, rfl⟩
abbrev main_call11_v0 : Ref sig .tc := ⟨.hbm, 236, rfl⟩
abbrev main_v155 : Ref sig .tc := ⟨.hbm, 237, rfl⟩
abbrev main_v156 : Ref sig .tc := ⟨.hbm, 238, rfl⟩
abbrev main_cst_30 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_31 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_cst_32 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_cst_33 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩

abbrev nD : Nat := 1
abbrev τ : Topo := Topo.v7x

variable {F : FTy → Type} [FloatOps F]

class Facts₀ : Prop where
  bcast_S125_S1x125_1 : S125.BroadcastsInDim S1x125 (![1] : Fin 1 → Fin S1x125.rank)
  bcast_S1x125_S16384x125_0_1 : S1x125.BroadcastsInDim S16384x125 (![0, 1] : Fin 2 → Fin S16384x125.rank)
  bcast_S1x125_S8192x125_0_1 : S1x125.BroadcastsInDim S8192x125 (![0, 1] : Fin 2 → Fin S8192x125.rank)
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S_S8192 : S_.BroadcastsInDim S8192 (![] : Fin 0 → Fin S8192.rank)
  bcast_S16384_S16384x1_0 : S16384.BroadcastsInDim S16384x1 (![0] : Fin 1 → Fin S16384x1.rank)
  bcast_S16384x1_S16384x125_0_1 : S16384x1.BroadcastsInDim S16384x125 (![0, 1] : Fin 2 → Fin S16384x125.rank)
  bcast_S_S8192x96 : S_.BroadcastsInDim S8192x96 (![] : Fin 0 → Fin S8192x96.rank)
  bcast_S8192_S8192x1_0 : S8192.BroadcastsInDim S8192x1 (![0] : Fin 1 → Fin S8192x1.rank)
  bcast_S8192x1_S8192x96_0_1 : S8192x1.BroadcastsInDim S8192x96 (![0, 1] : Fin 2 → Fin S8192x96.rank)
  bcast_S96_S1x96_1 : S96.BroadcastsInDim S1x96 (![1] : Fin 1 → Fin S1x96.rank)
  bcast_S1x96_S8192x96_0_1 : S1x96.BroadcastsInDim S8192x96 (![0, 1] : Fin 2 → Fin S8192x96.rank)
  bcast_S8192x1_S8192x125_0_1 : S8192x1.BroadcastsInDim S8192x125 (![0, 1] : Fin 2 → Fin S8192x125.rank)
  bcast_S_S16384x96 : S_.BroadcastsInDim S16384x96 (![] : Fin 0 → Fin S16384x96.rank)
  bcast_S16384x1_S16384x96_0_1 : S16384x1.BroadcastsInDim S16384x96 (![0, 1] : Fin 2 → Fin S16384x96.rank)
  bcast_S1x96_S16384x96_0_1 : S1x96.BroadcastsInDim S16384x96 (![0, 1] : Fin 2 → Fin S16384x96.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384x1 : S_.BroadcastsInDim S16384x1 (![] : Fin 0 → Fin S16384x1.rank)
  reducesTo_S8192x64_S8192_d1 : S8192x64.ReducesTo [1] S8192
  bcast_S_S8192x1 : S_.BroadcastsInDim S8192x1 (![] : Fin 0 → Fin S8192x1.rank)
  transposes_S8192x64_S64x8192_1_0 : S8192x64.Transposes [1, 0] S64x8192
  shapeCasts_S16384x8192_S134217728 : S16384x8192.ShapeCasts S134217728
  dot_S16384x64_S64x125_S16384x125_1_0_0_1_n_n_wf : DotDims.WF S16384x64 S64x125 S16384x125 [1] [0] [0] [1] [] []
  dot_S8192x64_S64x125_S8192x125_1_0_0_1_n_n_wf : DotDims.WF S8192x64 S64x125 S8192x125 [1] [0] [0] [1] [] []
  scatter_S16384_S262144x1_S262144_n_0_0_1_wf : ScatterDims.WF S16384 S262144x1 S262144 [] [0] [0] 1
  scatter_S8192_S262144x1_S262144_n_0_0_1_wf : ScatterDims.WF S8192 S262144x1 S262144 [] [0] [0] 1
  dot_S16384x125_S125x96_S16384x96_1_0_0_1_n_n_wf : DotDims.WF S16384x125 S125x96 S16384x96 [1] [0] [0] [1] [] []
  gather_S16384x96_S262144x1_S262144x96_1_0_n_n_0_1_196_wf : GatherDims.WF S16384x96 S262144x1 S262144x96 [1] [0] [] [0] [] 1 ![1, 96]
  scatter_S8192x96_S262144x1_S262144x96_1_0_0_1_wf : ScatterDims.WF S8192x96 S262144x1 S262144x96 [1] [0] [0] 1
  dot_S8192x125_S125x96_S8192x96_1_0_0_1_n_n_wf : DotDims.WF S8192x125 S125x96 S8192x96 [1] [0] [0] [1] [] []
  gather_S8192x96_S262144x1_S262144x96_1_0_n_n_0_1_196_wf : GatherDims.WF S8192x96 S262144x1 S262144x96 [1] [0] [] [0] [] 1 ![1, 96]
  scatter_S16384x96_S262144x1_S262144x96_1_0_0_1_wf : ScatterDims.WF S16384x96 S262144x1 S262144x96 [1] [0] [0] 1
  dot_S16384x96_S96x64_S16384x64_1_0_0_1_n_n_wf : DotDims.WF S16384x96 S96x64 S16384x64 [1] [0] [0] [1] [] []
  gather_S16384x64_S262144x1_S262144x64_1_0_n_n_0_1_164_wf : GatherDims.WF S16384x64 S262144x1 S262144x64 [1] [0] [] [0] [] 1 ![1, 64]
  scatter_S8192x64_S262144x1_S262144x64_1_0_0_1_wf : ScatterDims.WF S8192x64 S262144x1 S262144x64 [1] [0] [0] 1
  dot_S8192x96_S96x64_S8192x64_1_0_0_1_n_n_wf : DotDims.WF S8192x96 S96x64 S8192x64 [1] [0] [0] [1] [] []
  gather_S8192x64_S262144x1_S262144x64_1_0_n_n_0_1_164_wf : GatherDims.WF S8192x64 S262144x1 S262144x64 [1] [0] [] [0] [] 1 ![1, 64]
  scatter_S16384x64_S262144x1_S262144x64_1_0_0_1_wf : ScatterDims.WF S16384x64 S262144x1 S262144x64 [1] [0] [0] 1
  dot_S16384x64_S64x8192_S16384x8192_1_0_0_1_n_n_wf : DotDims.WF S16384x64 S64x8192 S16384x8192 [1] [0] [0] [1] [] []

variable [Facts₀]

def dot_S16384x64_S64x125_S16384x125_1_0_0_1_n_n : DotDims S16384x64 S64x125 S16384x125 where
  lhsContracting := [1]
  rhsContracting := [0]
  lhsNonContracting := [0]
  rhsNonContracting := [1]
  lhsBatch := []
  rhsBatch := []
  wf := dot_S16384x64_S64x125_S16384x125_1_0_0_1_n_n_wf
def dot_S8192x64_S64x125_S8192x125_1_0_0_1_n_n : DotDims S8192x64 S64x125 S8192x125 where
  lhsContracting := [1]
  rhsContracting := [0]
  lhsNonContracting := [0]
  rhsNonContracting := [1]
  lhsBatch := []
  rhsBatch := []
  wf := dot_S8192x64_S64x125_S8192x125_1_0_0_1_n_n_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S16384x125_S125x96_S16384x96_1_0_0_1_n_n : DotDims S16384x125 S125x96 S16384x96 where
  lhsContracting := [1]
  rhsContracting := [0]
  lhsNonContracting := [0]
  rhsNonContracting := [1]
  lhsBatch := []
  rhsBatch := []
  wf := dot_S16384x125_S125x96_S16384x96_1_0_0_1_n_n_wf
def gather_S16384x96_S262144x1_S262144x96_1_0_n_n_0_1_196 : GatherDims S16384x96 S262144x1 S262144x96 where
  offsetDims := [1]
  collapsedSliceDims := [0]
  operandBatchingDims := []
  startIndicesBatchingDims := []
  startIndexMap := [0]
  indexVectorDim := 1
  sliceSizes := ![1, 96]
  wf := gather_S16384x96_S262144x1_S262144x96_1_0_n_n_0_1_196_wf
def scatter_S8192x96_S262144x1_S262144x96_1_0_0_1 : ScatterDims S8192x96 S262144x1 S262144x96 where
  updateWindowDims := [1]
  insertedWindowDims := [0]
  scatterDimsToOperandDims := [0]
  indexVectorDim := 1
  wf := scatter_S8192x96_S262144x1_S262144x96_1_0_0_1_wf
def dot_S8192x125_S125x96_S8192x96_1_0_0_1_n_n : DotDims S8192x125 S125x96 S8192x96 where
  lhsContracting := [1]
  rhsContracting := [0]
  lhsNonContracting := [0]
  rhsNonContracting := [1]
  lhsBatch := []
  rhsBatch := []
  wf := dot_S8192x125_S125x96_S8192x96_1_0_0_1_n_n_wf
def gather_S8192x96_S262144x1_S262144x96_1_0_n_n_0_1_196 : GatherDims S8192x96 S262144x1 S262144x96 where
  offsetDims := [1]
  collapsedSliceDims := [0]
  operandBatchingDims := []
  startIndicesBatchingDims := []
  startIndexMap := [0]
  indexVectorDim := 1
  sliceSizes := ![1, 96]
  wf := gather_S8192x96_S262144x1_S262144x96_1_0_n_n_0_1_196_wf
def scatter_S16384x96_S262144x1_S262144x96_1_0_0_1 : ScatterDims S16384x96 S262144x1 S262144x96 where
  updateWindowDims := [1]
  insertedWindowDims := [0]
  scatterDimsToOperandDims := [0]
  indexVectorDim := 1
  wf := scatter_S16384x96_S262144x1_S262144x96_1_0_0_1_wf
def dot_S16384x96_S96x64_S16384x64_1_0_0_1_n_n : DotDims S16384x96 S96x64 S16384x64 where
  lhsContracting := [1]
  rhsContracting := [0]
  lhsNonContracting := [0]
  rhsNonContracting := [1]
  lhsBatch := []
  rhsBatch := []
  wf := dot_S16384x96_S96x64_S16384x64_1_0_0_1_n_n_wf
def gather_S16384x64_S262144x1_S262144x64_1_0_n_n_0_1_164 : GatherDims S16384x64 S262144x1 S262144x64 where
  offsetDims := [1]
  collapsedSliceDims := [0]
  operandBatchingDims := []
  startIndicesBatchingDims := []
  startIndexMap := [0]
  indexVectorDim := 1
  sliceSizes := ![1, 64]
  wf := gather_S16384x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x96_S96x64_S8192x64_1_0_0_1_n_n : DotDims S8192x96 S96x64 S8192x64 where
  lhsContracting := [1]
  rhsContracting := [0]
  lhsNonContracting := [0]
  rhsNonContracting := [1]
  lhsBatch := []
  rhsBatch := []
  wf := dot_S8192x96_S96x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S16384x64_S262144x1_S262144x64_1_0_0_1 : ScatterDims S16384x64 S262144x1 S262144x64 where
  updateWindowDims := [1]
  insertedWindowDims := [0]
  scatterDimsToOperandDims := [0]
  indexVectorDim := 1
  wf := scatter_S16384x64_S262144x1_S262144x64_1_0_0_1_wf
def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«114984_j22797686407666_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibProdTransposed.lean ====
/-
  A plain matrix product whose right factor is a transpose: rows against rows.

  For `l : [M, K]` and `r : [N, K]` on the extended reals, and any `rt : [K, N]` that is the transpose of `r`
  (`rt (k, q) = r (q, k)`), the plain product `Cert.Lib.MatProd.prod l rt` at `(p, q)` is the sum over `k : Fin K` of
  `l (p, k) * r (q, k)`: row `p` of `l` against ROW `q` of `r`. This is what a kernel body computes that transposes a
  block in registers and then multiplies (`x @ w.T` written as transpose + matmul), and what a host reference computes
  that transposes a matrix and then takes one `dot_general`; with `Cert.Lib.MatProd.matmul_zero_eq_prod` /
  `dotGeneral_eq_prod` for the product and the library's `transpose_ix2_apply` for the hypothesis, both read as the same
  rows-against-rows sum. Only a term-by-term re-indexing of the sum: no finiteness, infinities of both signs included.
  Any extents.
-/
import Idealize.ShloMosaic.Lib.ValueIdx
import proofs.«114984_j22797686407666_2_alg».proof.Proof.LibMatProd

noncomputable section

namespace Cert.Lib.ProdTransposed

open Idealize.ShloMosaic Idealize.ShloMosaic.ValueIdx

/-- A plain product whose right factor is a transpose: entry `(p, q)` is row `p` of `l` against ROW `q` of `r`. -/
theorem prod_transposed {M N K : ℕ} (l : (⟨2, ![M, K]⟩ : Shape).Idx → EReal) (r : (⟨2, ![N, K]⟩ : Shape).Idx → EReal)
    (rt : (⟨2, ![K, N]⟩ : Shape).Idx → EReal) (hrt : ∀ (k : Fin K) (q : Fin N), rt (ix2 k q) = r (ix2 q k))
    (p : Fin M) (q : Fin N) :
    Cert.Lib.MatProd.prod l rt (ix2 p q) = ∑ k : Fin K, l (ix2 p k) * r (ix2 q k) :=
  Finset.sum_congr rfl fun k _ => by
    show l (ix2 p k) * rt (ix2 k q) = l (ix2 p k) * r (ix2 q k)
    rw [hrt k q]

end Cert.Lib.ProdTransposed

end
-- ==== Proof.Ratings.lean ====
/-
  The ratings matrix: every user row against every repo row.

  For a user matrix `u` of 16384 rows and a repo matrix `r` of 8192 rows, both of 64 features, `ratings u r` at
  `(i, j)` is the sum over the features `k` of `u (i, k) * r (j, k)` on the extended reals: the product of `u` with
  the TRANSPOSE of `r`. Nothing here needs a finite entry: the only facts used are that a product against a
  transposed right factor reads the right factor's ROW, and that a sum of products is re-indexed term by term.

  A plain product `l · rt` whose right factor `rt` is the transpose of `r` is, entry by entry, rows of `l` against
  rows of `r` (`Cert.Lib.ProdTransposed.prod_transposed`).  `ratings_eq_prod`: so `ratings u r` IS the plain product
  of `u` with any transpose of `r`, as whole functions.
-/
import Idealize.ShloMosaic.Lib.ValueIdx
import proofs.«114984_j22797686407666_2_alg».proof.Proof.LibMatProd
import proofs.«114984_j22797686407666_2_alg».proof.Proof.LibProdTransposed

noncomputable section

namespace Cert.Ratings

open Idealize.ShloMosaic Idealize.ShloMosaic.ValueIdx

/-- Entry `(i, j)`: user row `i` against repo row `j`, summed over the 64 features. -/
def ratings (u : (⟨2, ![16384, 64]⟩ : Shape).Idx → EReal) (r : (⟨2, ![8192, 64]⟩ : Shape).Idx → EReal) :
    (⟨2, ![16384, 8192]⟩ : Shape).Idx → EReal :=
  fun j => ∑ k : Fin 64, u (ix2 (j 0) k) * r (ix2 (j 1) k)

theorem ratings_apply (u : (⟨2, ![16384, 64]⟩ : Shape).Idx → EReal) (r : (⟨2, ![8192, 64]⟩ : Shape).Idx → EReal)
    (i : Fin 16384) (j : Fin 8192) : ratings u r (ix2 i j) = ∑ k : Fin 64, u (ix2 i k) * r (ix2 j k) := rfl

/-- The ratings are the plain product of the user matrix with any transpose of the repo matrix. -/
theorem ratings_eq_prod (u : (⟨2, ![16384, 64]⟩ : Shape).Idx → EReal) (r : (⟨2, ![8192, 64]⟩ : Shape).Idx → EReal)
    (rt : (⟨2, ![64, 8192]⟩ : Shape).Idx → EReal) (hrt : ∀ (k : Fin 64) (q : Fin 8192), rt (ix2 k q) = r (ix2 q k)) :
    Cert.Lib.MatProd.prod u rt = ratings u r :=
  funext fun j => by
    obtain ⟨i, q, rfl⟩ : ∃ (i : Fin 16384) (q : Fin 8192), j = ix2 i q := ⟨j 0, j 1, eq_ix2 j⟩
    exact (Cert.Lib.ProdTransposed.prod_transposed u r rt hrt i q).trans (ratings_apply u r i q).symm

end Cert.Ratings

end
-- ==== Proof.RefProduct.lean ====
/-
  The reference's last two steps: the product with the transposed repo matrix, flattened.

  The reference transposes the normalized repo matrix, multiplies the normalized user matrix with it by one
  `dot_general` over the 64 features, and flattens the 16384 × 8192 result row by row. At the ideal values the
  `dot_general` is rows times columns, and a column of the transpose is a row of the matrix: for ANY two matrices
  `u`, `r` the product is `ratings u r` — user row `i` against repo row `j`. What `u` and `r` are (two layers of
  message passing and a row normalization) plays no part here.
-/
import proofs.«114984_j22797686407666_2_alg».proof.Proof.Gen.ReferenceIdeal.Read
import Idealize.ShloMosaic.Lib.ValueLayout
import proofs.«114984_j22797686407666_2_alg».proof.Proof.LibMatProd
import proofs.«114984_j22797686407666_2_alg».proof.Proof.Ratings

noncomputable section

namespace Cert.ReferenceIdeal.Product

open Cert.ReferenceIdeal Cert.ReferenceIdeal.Gen Idealize.ShloMosaic Idealize.ShloMosaic.TcCoe Idealize.SL.Sem
open Idealize.ShloMosaic.ValueIdx

/-- The host's product of `u` with the transpose of `r` is the ratings matrix of `u` and `r`. -/
theorem dot_transpose_eq_ratings (u : FVec Ideal S16384x64 .f32) (r : FVec Ideal S8192x64 .f32) :
    Host.dotGeneral dot_S16384x64_S64x8192_S16384x8192_1_0_0_1_n_n none u
        (transpose S64x8192 [1, 0] r transposes_S8192x64_S64x8192_1_0)
      = Cert.Ratings.ratings u r :=
  (Cert.Lib.MatProd.dotGeneral_eq_prod dot_S16384x64_S64x8192_S16384x8192_1_0_0_1_n_n rfl rfl
      Cert.ReferenceIdeal.Read.lhs_main_v173_0 Cert.ReferenceIdeal.Read.lhs_main_v173_1
      Cert.ReferenceIdeal.Read.rhs_main_v173_0 Cert.ReferenceIdeal.Read.rhs_main_v173_1 none u _).trans
    (Cert.Ratings.ratings_eq_prod u r _ (fun k q => transpose_ix2_apply r transposes_S8192x64_S64x8192_1_0 k q))

/-- The reference's result stage: the ratings of its two normalized matrices, flattened row by row. -/
theorem result_stage (x0 : (⟨S16384x64, .f32⟩ : BufTy).Contents (Elt Ideal)) (x1 : (⟨S8192x64, .f32⟩ : BufTy).Contents (Elt Ideal)) (x2 : (⟨S64x125, .f32⟩ : BufTy).Contents (Elt Ideal)) (x3 : (⟨S125, .f32⟩ : BufTy).Contents (Elt Ideal)) (x4 : (⟨S64x125, .f32⟩ : BufTy).Contents (Elt Ideal)) (x5 : (⟨S125, .f32⟩ : BufTy).Contents (Elt Ideal)) (x6 : (⟨S125x96, .f32⟩ : BufTy).Contents (Elt Ideal)) (x7 : (⟨S96, .f32⟩ : BufTy).Contents (Elt Ideal)) (x8 : (⟨S125x96, .f32⟩ : BufTy).Contents (Elt Ideal)) (x9 : (⟨S96, .f32⟩ : BufTy).Contents (Elt Ideal)) (x10 : (⟨S125x96, .f32⟩ : BufTy).Contents (Elt Ideal)) (x11 : (⟨S96, .f32⟩ : BufTy).Contents (Elt Ideal)) (x12 : (⟨S125x96, .f32⟩ : BufTy).Contents (Elt Ideal)) (x13 : (⟨S96, .f32⟩ : BufTy).Contents (Elt Ideal)) (x14 : (⟨S96x64, .f32⟩ : BufTy).Contents (Elt Ideal)) (x15 : (⟨S64, .f32⟩ : BufTy).Contents (Elt Ideal)) (x16 : (⟨S96x64, .f32⟩ : BufTy).Contents (Elt Ideal)) (x17 : (⟨S64, .f32⟩ : BufTy).Contents (Elt Ideal)) (x18 : (⟨S96x64, .f32⟩ : BufTy).Contents (Elt Ideal)) (x19 : (⟨S64, .f32⟩ : BufTy).Contents (Elt Ideal)) (x20 : (⟨S96x64, .f32⟩ : BufTy).Contents (Elt Ideal)) (x21 : (⟨S64, .f32⟩ : BufTy).Contents (Elt Ideal)) (x22 x23 x24 x25 : (⟨S262144, .i32⟩ : BufTy).Contents (Elt Ideal)) :
    Cert.ReferenceIdeal.Read.val_main_v174 (F := Ideal) x0 x1 x2 x3 x4 x5 x6 x7 x8 x9 x10 x11 x12 x13 x14 x15 x16 x17 x18 x19 x20 x21 x22 x23 x24 x25
      = shapeCast S134217728 (Cert.Ratings.ratings
          (Cert.ReferenceIdeal.Read.val_main_v163 (F := Ideal) x0 x1 x2 x3 x4 x5 x6 x7 x8 x9 x10 x11 x12 x13 x16 x17 x18 x19 x22 x23 x24 x25)
          (Cert.ReferenceIdeal.Read.val_main_v171 (F := Ideal) x0 x1 x2 x3 x4 x5 x6 x7 x8 x9 x10 x11 x12 x13 x14 x15 x20 x21 x22 x23 x24 x25))
          shapeCasts_S16384x8192_S134217728 := by
  unfold Cert.ReferenceIdeal.Read.val_main_v174 Cert.ReferenceIdeal.Read.val_main_v173 Cert.ReferenceIdeal.Read.val_main_v172
  rw [dot_transpose_eq_ratings]

/-- The reference run's result, as that function of the argument arrays it was launched with. -/
theorem result_eq (m : (ℓ : Loc nD τ sig) → Buf (Elt Ideal) ℓ) (c : Dev nD) :
    Cert.ReferenceIdeal.Value.res_main_v174 m c
      = shapeCast S134217728 (Cert.Ratings.ratings
          (Cert.ReferenceIdeal.Read.val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg22)) (m ((c.tc : Thread nD τ).loc main_arg23)) (m ((c.tc : Thread nD τ).loc main_arg24)) (m ((c.tc : Thread nD τ).loc main_arg25)))
          (Cert.ReferenceIdeal.Read.val_main_v171 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))))
          shapeCasts_S16384x8192_S134217728 :=
  (Cert.ReferenceIdeal.Read.val_main_v174_eq m c).trans (result_stage _ _ _ _ _ _ _ _ _ _ _ _ _ _ _ _ _ _ _ _ _ _ _ _ _ _)

end Cert.ReferenceIdeal.Product

end
-- ==== Proof.BlockProduct.lean ====
/-
  One block of the kernel: 2048 user rows against 2048 repo rows.

  The body loads a block `x0` of 2048 user rows and a block `x1` of 2048 repo rows (both 64 features wide), transposes
  the second, and multiplies the first with that transpose into a zero accumulator; the product is the one value it
  stores, over the whole 2048 × 2048 output block. At the ideal values a matrix product into zero is rows times
  columns, the two shape casts are casts of a shape to itself, and a transposed matrix read at `(k, q)` is the matrix
  at `(q, k)`: so the stored block at `(p, q)` is the sum over the features `k` of `x0 (p, k) * x1 (q, k)` — user row
  `p` of the block against repo row `q` of the block.

  The contraction record enters through four facts about which coordinates of an operand index come from the output
  index and which from the contracted one (`lhs0` … `rhs1`), each read off the literal record.
-/
import proofs.«114984_j22797686407666_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«114984_j22797686407666_2_alg».proof.Proof.LibMatProd
import proofs.«114984_j22797686407666_2_alg».proof.Proof.Ratings

noncomputable section

namespace Cert.KernelIdeal.Block

open Cert.KernelIdeal Cert.KernelIdeal.Gen Idealize.ShloMosaic Idealize.ShloMosaic.ValueIdx

/-! ## The contraction record of the block product: `[2048, 64] × [64, 2048] → [2048, 2048]`, one contracted axis -/

theorem lhs0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

theorem lhs1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q

theorem rhs0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q

theorem rhs1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-! ## The stored block -/

/-- The body's one stored value is the plain product of the user block with the transposed repo block. -/
theorem pay_eq_prod (x0 x1 : Vec Ideal S2048x64 .bf16) :
    k0_pay1 (F := Ideal) x0 x1
      = Cert.Lib.MatProd.prod x0 (transpose S64x2048 [1, 0] x1 transposes_S2048x64_p1_0_S64x2048) := by
  have e0 : shapeCast S2048x64 x0 shapeCasts_S2048x64_S2048x64 = x0 := shapeCast_self x0 _
  have e1 : shapeCast S2048x64 x1 shapeCasts_S2048x64_S2048x64 = x1 := shapeCast_self x1 _
  unfold k0_pay1
  show matmul dot_S2048x64_S64x2048_S2048x2048_1_0_0_1_n_n none (shapeCast S2048x64 x0 shapeCasts_S2048x64_S2048x64)
      (transpose S64x2048 [1, 0] (shapeCast S2048x64 x1 shapeCasts_S2048x64_S2048x64) transposes_S2048x64_p1_0_S64x2048)
      (constant (F := Ideal) S2048x2048 .f32 0x00000000#32) = _
  rw [e0, e1]
  exact Cert.Lib.MatProd.matmul_zero_eq_prod dot_S2048x64_S64x2048_S2048x2048_1_0_0_1_n_n rfl rfl lhs0 lhs1 rhs0 rhs1 none x0 _

/-- At `(p, q)` the stored block is user row `p` of the block against repo row `q` of the block. -/
theorem pay_apply (x0 x1 : Vec Ideal S2048x64 .bf16) (p q : Fin 2048) :
    k0_pay1 (F := Ideal) x0 x1 (ix2 p q) = ∑ k : Fin 64, x0 (ix2 p k) * x1 (ix2 q k) := by
  rw [pay_eq_prod]
  exact Cert.Lib.ProdTransposed.prod_transposed x0 x1 _ (fun k q => transpose_ix2_apply x1 transposes_S2048x64_p1_0_S64x2048 k q) p q

end Cert.KernelIdeal.Block

end
-- ==== Proof.KernelArray.lean ====
/-
  The kernel's output array, and its flattened result.

  The grid has 8 × 4 points; point `(a, b)` stages user rows `2048 a … 2048 a + 2047` and repo rows
  `2048 b … 2048 b + 2047` and writes back the 2048 × 2048 block of the output at block position `(a, b)`. The block it
  writes is, at `(p, q)`, user row `2048 a + p` against repo row `2048 b + q` (`Block.pay_apply` read through the two
  input blocks): block `(a, b)` of `ratings U R`, where `U` and `R` are the two arrays the region finds staged
  (`flushed_eq`). The 32 blocks tile the 16384 × 8192 array (`covered`), so after the region the array IS
  `ratings U R` (`final`), and the one host line after the region flattens it row by row (`result_eq`, `run`).
-/
import proofs.«114984_j22797686407666_2_alg».proof.Proof.Gen.KernelIdeal.Frame
import Idealize.ShloMosaic.Lib.Pipeline.Value
import Idealize.ShloMosaic.Lib.ValueIdx
import Idealize.ShloMosaic.Lib.StableHlo.Run
import proofs.«114984_j22797686407666_2_alg».proof.Proof.Ratings
import proofs.«114984_j22797686407666_2_alg».proof.Proof.BlockProduct

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The user-side array as the region finds it (window 0 stages it). -/
abbrev U (c : Dev nD) : S16384x64.Idx → EReal := V m c main_v142
/-- The repo-side array as the region finds it (window 1 stages it). -/
abbrev R (c : Dev nD) : S8192x64.Idx → EReal := V m c main_v151

/-- The offsets `(0, 0)` of the body's whole-buffer accesses are the constant zero function. -/
theorem zero_offsets : (![0, 0] : Fin 2 → Nat) = fun _ => 0 := funext fun a => by fin_cases a <;> rfl

/-- Where the three blocks of a point sit, decided over the 32 points: the user block's row position is the output
    block's row position, the repo block's row position is the output block's COLUMN position, both input blocks sit at
    feature position 0, and the output block's positions stay below 8 and below 4. -/
theorem block_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every block position of the 8 × 4 tiling is some point's output block. -/
theorem every_block_position : ∀ (q0 : Fin 8) (q1 : Fin 4), ∃ t : Fin cfg0.N, win0_2.index t = ![q0.val, q1.val] :=
  (by decide +kernel : ∀ (q0 : Fin 8) (q1 : Fin 4), ∃ t : Fin grid0.N, _)

/-- The user block of point `t` at `(p, k)` is user row `2048 a + p` at feature `k`, for `a` the row position of the
    point's output block: a block's coordinate is its position times its size plus the coordinate inside it. -/
theorem user_block_apply (c : Dev nD) (t : Fin cfg0.N) (p : Fin 2048) (k : Fin 64) (i : Fin 16384)
    (hi : i.val = win0_2.index t (0 : Fin 2) * 2048 + p.val) :
    (iblk m c 0 t : Vec Ideal S2048x64 .bf16) (ix2 p k) = U m c (ix2 i k) := by
  obtain ⟨e0, e1, -, -, -, -⟩ := block_positions t
  show V m c main_v142 (((cfg0.win 0).blk t).view.emb (ix2 p k)) = V m c main_v142 (ix2 i k)
  refine congrArg (V m c main_v142) (funext fun a => Fin.ext ?_)
  match a with
  | ⟨0, _⟩ => show win0_0.index t (0 : Fin 2) * 2048 + 1 * p.val = i.val; omega
  | ⟨1, _⟩ => show win0_0.index t (1 : Fin 2) * 64 + 1 * k.val = k.val; omega

/-- The repo block of point `t` at `(q, k)` is repo row `2048 b + q` at feature `k`, for `b` the COLUMN position of the
    point's output block. -/
theorem repo_block_apply (c : Dev nD) (t : Fin cfg0.N) (q : Fin 2048) (k : Fin 64) (j : Fin 8192)
    (hj : j.val = win0_2.index t (1 : Fin 2) * 2048 + q.val) :
    (iblk m c 1 t : Vec Ideal S2048x64 .bf16) (ix2 q k) = R m c (ix2 j k) := by
  obtain ⟨-, -, e2, e3, -, -⟩ := block_positions t
  show V m c main_v151 (((cfg0.win 1).blk t).view.emb (ix2 q k)) = V m c main_v151 (ix2 j k)
  refine congrArg (V m c main_v151) (funext fun a => Fin.ext ?_)
  match a with
  | ⟨0, _⟩ => show win0_1.index t (0 : Fin 2) * 2048 + 1 * q.val = j.val; omega
  | ⟨1, _⟩ => show win0_1.index t (1 : Fin 2) * 64 + 1 * k.val = k.val; omega

/-- WHAT POINT `t` WRITES BACK is block `t` of the ratings of the two staged arrays. -/
theorem flushed_eq (c : Dev nD) (t : Fin cfg0.N) :
    (dats m 0 c).flushed 2 t = ((cfg0.win 2).blk t).view.read (Elt Ideal) (Cert.Ratings.ratings (U m c) (R m c)) := by
  show (cfg0.win 2).cut (grid0.coords t) ((dats m 0 c).after 2 t) = _
  rw [after0_2]
  unfold out0_2
  rw [View.canon_unit_zero zero_offsets]
  simp only [View.ld_unit_zero (S := S2048x64) zero_offsets]
  obtain ⟨-, -, -, -, e4, e5⟩ := block_positions t
  funext y
  obtain ⟨p, q, rfl⟩ : ∃ (p q : Fin 2048), y = ix2 p q := ⟨y 0, y 1, eq_ix2 y⟩
  have hp : p.val < 2048 := p.isLt
  have hq : q.val < 2048 := q.isLt
  -- the stored block at `(p, q)`: row `p` of the user block against row `q` of the repo block
  refine (Block.pay_apply _ _ p q).trans ?_
  -- the output block's `(p, q)` sits in the array at row `2048 a + p`, column `2048 b + q`
  show _ = Cert.Ratings.ratings (U m c) (R m c) (((cfg0.win 2).blk t).view.emb (ix2 p q))
  have hi : win0_2.index t (0 : Fin 2) * 2048 + p.val < 16384 := by omega
  have hj : win0_2.index t (1 : Fin 2) * 2048 + q.val < 8192 := by omega
  have hemb : ((cfg0.win 2).blk t).view.emb (ix2 p q)
      = ix2 (⟨win0_2.index t (0 : Fin 2) * 2048 + p.val, hi⟩ : Fin 16384)
          (⟨win0_2.index t (1 : Fin 2) * 2048 + q.val, hj⟩ : Fin 8192) := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 2048 + 1 * q.val = win0_2.index t (1 : Fin 2) * 2048 + q.val; omega
  rw [hemb, Cert.Ratings.ratings_apply]
  exact Finset.sum_congr rfl fun k _ => by
    rw [user_block_apply m c t p k ⟨_, hi⟩ rfl, repo_block_apply m c t q k ⟨_, hj⟩ rfl]

/-- An index of the output array is in point `t`'s block iff on each axis its coordinate is among the 2048 the block
    holds from its position on. -/
theorem mem_out_block (t : Fin cfg0.N) (i : S16384x8192.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v152).slice (win0_2.rect t)).set ↔ _
  rw [View.set_slice_whole, Rect.mem_set_unit]
  exact Iff.rfl

/-- Every index of the output array is in some point's block: the 32 blocks tile it. -/
theorem covered (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  -- the block at position `(row / 2048, column / 2048)` holds the index
  obtain ⟨t, ht⟩ := every_block_position ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_out_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- THE ARRAY after the region: the ratings of the two staged arrays. -/
theorem final (c : Dev nD) : (dats m 0 c).arrAt 2 cfg0.N = Cert.Ratings.ratings (U m c) (R m c) :=
  (dats m 0 c).arrAt_eq_of_cover 2 _ (fun t _ => flushed_eq m c t) covered

/-- The result buffer after the frame run: the output array flattened row by row. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v153)
      = shapeCast S134217728 (Cert.Ratings.ratings (U m c) (R m c)) shapeCasts_S16384x8192_S134217728 := by
  -- the result buffer is no array of the region: it holds what the one line after the region leaves
  refine ((h c).2 main_v153 (Pipeline.mem_restRefs_of main_v153 (by decide) (by decide))).trans ?_
  unfold Pipeline.afterTail₀
  show StableHlo.after hostOps1 _ (Proc.devRef .tc main_v153) = _
  after_results
  -- that line reshapes the output array, which the region left at the ratings
  have harr := (Pipeline.withArrays_arr spec0 launch0.win.arr_inj c (V0 m c)
    (fun w => (dats m 0 c).arrAt w cfg0.N) 2).trans (final m c)
  exact congrArg (fun X => shapeCast S134217728 X shapeCasts_S16384x8192_S134217728) harr

/-- The kernel program's run, read: the result is the flattened ratings of the two staged arrays; the arguments end
    as launched. -/
theorem run : θ_run defs (onTc (τ := τ) (main (F := Ideal))) ⟨m, fun _ => 0, ρ⟩ fun r => ∀ c : Dev nD,
      r.2.mem ((c.tc : Thread nD τ).loc main_v153)
        = shapeCast S134217728 (Cert.Ratings.ratings (U m c) (R m c)) shapeCasts_S16384x8192_S134217728
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c)⟩)
    (run_main m ρ)

end Cert.KernelIdeal.Array

end
-- ==== Proof.PrefixUser.lean ====
/-
  What the region finds staged on the user side.

  Before its one region the kernel's program computes, on the host, the same chain of operations as the reference:
  the two embeddings (a product with a weight matrix plus a bias row), the in- and out-degrees of each edge list by
  scatter-adding ones, clamped below at one and raised to the power -1/2, two layers of degree-normalized message
  passing (scale the source rows, multiply by the layer's weights, gather along the edges' sources, scatter-add at
  their destinations, scale by the destination degrees, add the bias) each joined with a dense self-connection and
  rectified, and the row normalization (divide each row by the larger of its Euclidean norm and 1e-12). The kernel's
  program computes each edge list's two degree vectors ONCE and uses them in both layers, where the reference
  recomputes them per layer: the same function of the same edge list, so as a term over the argument arrays nothing
  differs. The last host step on this side rounds the normalized user matrix to bfloat16, which at the ideal values changes nothing
  and is kept here as the (identity) format change it is.

  So the array window 0 stages is the format change of the reference's normalized user matrix (its stage
  `val_main_v163`) of the kernel's own argument arrays. The proof opens the fold of the host operations before the region
  once and meets the reference's stages; no operation of the chain is ever read at an index.
-/
import proofs.«114984_j22797686407666_2_alg».proof.Proof.Gen.KernelIdeal.Frame
import proofs.«114984_j22797686407666_2_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 94000000 in
/-- The user-side array as the region finds it: the reference's normalized user matrix of the kernel's argument
    arrays, under the (identity) change of format to bfloat16. -/
theorem user_side (c : Dev nD) :
    (V m c main_v142 : FVec Ideal S16384x64 .bf16)
      = truncf (F := Ideal) (s := S16384x64) (φ := .f32) .bf16 ((Cert.ReferenceIdeal.Read.val_main_v163 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg22))
          (m ((c.tc : Thread nD τ).loc main_arg23))
          (m ((c.tc : Thread nD τ).loc main_arg24))
          (m ((c.tc : Thread nD τ).loc main_arg25))) : FVec Ideal S16384x64 .f32)
          bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v142) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.Prefix

end
-- ==== Proof.PrefixRepo.lean ====
/-
  What the region finds staged on the repo side.

  Before its one region the kernel's program computes, on the host, the same chain of operations as the reference:
  the two embeddings (a product with a weight matrix plus a bias row), the in- and out-degrees of each edge list by
  scatter-adding ones, clamped below at one and raised to the power -1/2, two layers of degree-normalized message
  passing (scale the source rows, multiply by the layer's weights, gather along the edges' sources, scatter-add at
  their destinations, scale by the destination degrees, add the bias) each joined with a dense self-connection and
  rectified, and the row normalization (divide each row by the larger of its Euclidean norm and 1e-12). The kernel's
  program computes each edge list's two degree vectors ONCE and uses them in both layers, where the reference
  recomputes them per layer: the same function of the same edge list, so as a term over the argument arrays nothing
  differs. The last host step on this side rounds the normalized repo matrix to bfloat16, which at the ideal values changes nothing
  and is kept here as the (identity) format change it is.

  So the array window 1 stages is the format change of the reference's normalized repo matrix (its stage
  `val_main_v171`) of the kernel's own argument arrays. The proof opens the fold of the host operations before the region
  once and meets the reference's stages; no operation of the chain is ever read at an index.
-/
import proofs.«114984_j22797686407666_2_alg».proof.Proof.Gen.KernelIdeal.Frame
import proofs.«114984_j22797686407666_2_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 94000000 in
/-- The repo-side array as the region finds it: the reference's normalized repo matrix of the kernel's argument
    arrays, under the (identity) change of format to bfloat16. -/
theorem repo_side (c : Dev nD) :
    (V m c main_v151 : FVec Ideal S8192x64 .bf16)
      = truncf (F := Ideal) (s := S8192x64) (φ := .f32) .bf16 ((Cert.ReferenceIdeal.Read.val_main_v171 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg20))
          (m ((c.tc : Thread nD τ).loc main_arg21))
          (m ((c.tc : Thread nD τ).loc main_arg22))
          (m ((c.tc : Thread nD τ).loc main_arg23))
          (m ((c.tc : Thread nD τ).loc main_arg24))
          (m ((c.tc : Thread nD τ).loc main_arg25))) : FVec Ideal S8192x64 .f32)
          bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v151) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.Prefix

end
-- ==== Proof.lean ====
/-
  The certificate of the ratings kernel against its reference, at the ideal values.

  Both programs embed the user and repo features, run two layers of degree-normalized message passing over the two
  edge lists with dense self-connections and rectifiers, normalize every row to unit Euclidean length (the norm
  clamped below at 1e-12), and return every user row against every repo row, flattened: a 16384 × 8192 matrix of
  inner products over 64 features. They differ in three places, none of which changes the value at the ideal
  instance. (1) The kernel's program computes each edge list's degree vectors once and shares them between the two
  layers; the reference recomputes them: the same function of the same arguments. (2) The kernel's program rounds the
  two normalized matrices to bfloat16 before the product; at the ideal values a change of format is the identity.
  (3) The kernel computes the product block by block over an 8 × 4 grid — 2048 user rows against 2048 repo rows per
  point, the repo block transposed in the body, accumulated from zero — where the reference transposes the whole repo
  matrix and takes ONE product: entry (i, j) of either is the sum over the 64 features k of U(i, k) · R(j, k)
  (`Cert.Ratings.ratings`), the blocks tile the matrix, and both programs flatten it row by row.

  No law used here needs a finite entry (sums are only re-indexed, never distributed over), so the precondition is
  never opened. The modules: Proof/Ratings (the matrix of inner products, and a product against a transposed factor),
  Proof/BlockProduct (what one grid point stores), Proof/KernelArray (the blocks tile the output; the kernel program's
  run), Proof/RefProduct (the reference's transpose, product and flattening), Proof/PrefixUser and Proof/PrefixRepo
  (what the region finds staged is the reference's normalized matrix of the same arguments), over the generated frames
  of both kernel programs and the generated run and stage-by-stage reading of the reference. The ideal pass rewrote
  nothing in the kernel, so `preserves` is the true proposition.
-/
import proofs.«114984_j22797686407666_2_alg».proof.Defs
import proofs.«114984_j22797686407666_2_alg».proof.Proof.Gen.Kernel
import proofs.«114984_j22797686407666_2_alg».proof.Proof.Gen.Kernel.Skeleton
import proofs.«114984_j22797686407666_2_alg».proof.Proof.Gen.Kernel.Launch
import proofs.«114984_j22797686407666_2_alg».proof.Proof.Gen.Kernel.Points
import proofs.«114984_j22797686407666_2_alg».proof.Proof.Gen.Kernel.Frame
import proofs.«114984_j22797686407666_2_alg».proof.Proof.Gen.KernelIdeal
import proofs.«114984_j22797686407666_2_alg».proof.Proof.Gen.KernelIdeal.Skeleton
import proofs.«114984_j22797686407666_2_alg».proof.Proof.Gen.KernelIdeal.Launch
import proofs.«114984_j22797686407666_2_alg».proof.Proof.Gen.KernelIdeal.Points
import proofs.«114984_j22797686407666_2_alg».proof.Proof.Gen.KernelIdeal.Frame
import proofs.«114984_j22797686407666_2_alg».proof.Proof.Gen.ReferenceIdeal
import proofs.«114984_j22797686407666_2_alg».proof.Proof.Gen.ReferenceIdeal.Run
import proofs.«114984_j22797686407666_2_alg».proof.Proof.Gen.ReferenceIdeal.Read
import proofs.«114984_j22797686407666_2_alg».proof.Proof.Gen.Pre_finite_inputs
import proofs.«114984_j22797686407666_2_alg».proof.Proof.Ratings
import proofs.«114984_j22797686407666_2_alg».proof.Proof.RefProduct
import proofs.«114984_j22797686407666_2_alg».proof.Proof.KernelArray
import proofs.«114984_j22797686407666_2_alg».proof.Proof.PrefixUser
import proofs.«114984_j22797686407666_2_alg».proof.Proof.PrefixRepo
import Idealize.ShloMosaic.Lib.ValueIdx
import Idealize.ShloMosaic.Adequacy
import Idealize.ShloMosaic.Init

noncomputable section

namespace Cert.Proof

open Idealize.ShloMosaic Idealize.ShloMosaic.TcCoe Idealize.SL.Sem

/-! ## The frames, and the idealization -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-! ## The two results are one function of the arguments -/

/-- At the ideal values a change of float format is the identity, as whole arrays. -/
theorem truncf_id {s : Shape} {φ ψ : FTy} (a : FVec Ideal s φ) (h : ψ.bits < φ.bits) :
    (truncf ψ a h : s.Idx → EReal) = a :=
  funext fun i => ValueIdx.truncf_apply a h i

/-- From memories agreeing on the arguments, the reference's result is the flattened ratings of the two arrays the
    kernel's region finds staged: the reference's two normalized matrices are functions of the arguments alone
    (`result_eq`), the agreement turns its arguments into the kernel's, and what the region finds staged is those
    matrices of the kernel's arguments up to the identity change of format (`user_side`, `repo_side`). -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v174 m' c
      = shapeCast Cert.KernelIdeal.S134217728 (Cert.Ratings.ratings (Cert.KernelIdeal.Array.U m c) (Cert.KernelIdeal.Array.R m c))
          Cert.KernelIdeal.Facts₀.shapeCasts_S16384x8192_S134217728 := by
  obtain ⟨h0, h1, h2, h3, h4, h5, h6, h7, h8, h9, h10, h11, h12, h13, h14, h15, h16, h17, h18, h19, h20, h21, h22, h23, h24, h25⟩ := hagree
  rw [Cert.ReferenceIdeal.Product.result_eq m' c, h0, h1, h2, h3, h4, h5, h6, h7, h8, h9, h10, h11, h12, h13, h14, h15, h16, h17, h18, h19, h20, h21, h22, h23, h24, h25]
  show _ = shapeCast Cert.KernelIdeal.S134217728 (Cert.Ratings.ratings (Cert.KernelIdeal.Gen.V m c Cert.KernelIdeal.main_v142) (Cert.KernelIdeal.Gen.V m c Cert.KernelIdeal.main_v151))
      Cert.KernelIdeal.Facts₀.shapeCasts_S16384x8192_S134217728
  rw [Cert.KernelIdeal.Prefix.user_side m c, Cert.KernelIdeal.Prefix.repo_side m c, truncf_id, truncf_id]

/-- At the ideal values, from memories agreeing on the arguments, both programs run, end with equal results —
    the flattened ratings of the two normalized matrices — and leave the arguments as launched. -/
theorem algebraic : Cert.algebraic_KernelIdeal_ReferenceIdeal := by
  intro m ρ m' ρ' _ hagree
  refine ⟨fun c => shapeCast Cert.KernelIdeal.S134217728
      (Cert.Ratings.ratings (Cert.KernelIdeal.Array.U m c) (Cert.KernelIdeal.Array.R m c))
      Cert.KernelIdeal.Facts₀.shapeCasts_S16384x8192_S134217728, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  exact bridge m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
